-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x480x640 : Shape := ⟨3, ![8, 480, 640]⟩
abbrev S256x4 : Shape := ⟨2, ![256, 4]⟩
abbrev S8 : Shape := ⟨1, ![8]⟩
abbrev S_ : Shape := ⟨0, ![]⟩

class Facts : Prop where
  bcast_S_S8x480x640 : S_.BroadcastsInDim S8x480x640 (![] : Fin 0 → Fin S8x480x640.rank)
  reducesTo_S8x480x640_S_d0_1_2 : S8x480x640.ReducesTo [0, 1, 2] S_
  h_S_ : 0 < S_.numel
  bcast_S_S256x4 : S_.BroadcastsInDim S256x4 (![] : Fin 0 → Fin S256x4.rank)
  reducesTo_S256x4_S_d0_1 : S256x4.ReducesTo [0, 1] S_

variable [Facts]

def fn {F : FTy → Type} [FloatOps F] (main_arg0 : FVec F S8x480x640 .f32) (main_arg1 : FVec F S256x4 .f32) (main_arg2 : IVec S8 32) : IVec S_ 1 :=
  let main_v0 : FVec F S8x480x640 .f32 := Host.absf main_arg0
  let main_cst : FVec F S_ .f32 := constant S_ .f32 0x7F800000#32
  let main_v1 : FVec F S8x480x640 .f32 := broadcastInDim S8x480x640 ![] bcast_S_S8x480x640 main_cst
  let main_v2 : IVec S8x480x640 1 := cmpf .olt main_v0 main_v1
  let main_c : IVec S_ 1 := constantI S_ 1 1#1
  let main_v3 : IVec S_ 1 := (fun x v => Host.reduce IntOp.andi x v reducesTo_S8x480x640_S_d0_1_2 h_S_) main_v2 main_c
  let main_v4 : FVec F S256x4 .f32 := Host.absf main_arg1
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  main_v8
-- ==== Kernel.lean ====
abbrev S8x480x640 : Shape := ⟨3, ![8, 480, 640]⟩
abbrev S256x4 : Shape := ⟨2, ![256, 4]⟩
abbrev S8 : Shape := ⟨1, ![8]⟩
abbrev S_ : Shape := ⟨0, ![]⟩
abbrev S256x1 : Shape := ⟨2, ![256, 1]⟩
abbrev S256 : Shape := ⟨1, ![256]⟩
abbrev S1x256 : Shape := ⟨2, ![1, 256]⟩
abbrev S1 : Shape := ⟨1, ![1]⟩
abbrev S7 : Shape := ⟨1, ![7]⟩
abbrev S8x1 : Shape := ⟨2, ![8, 1]⟩
abbrev S1x1 : Shape := ⟨2, ![1, 1]⟩
abbrev S8x256 : Shape := ⟨2, ![8, 256]⟩
abbrev S8x1x256 : Shape := ⟨3, ![8, 1, 256]⟩
abbrev S8x1x128 : Shape := ⟨3, ![8, 1, 128]⟩
abbrev S1x480x640 : Shape := ⟨3, ![1, 480, 640]⟩
abbrev S1x1x256 : Shape := ⟨3, ![1, 1, 256]⟩
abbrev S1x1x128 : Shape := ⟨3, ![1, 1, 128]⟩
abbrev S480x256 : Shape := ⟨2, ![480, 256]⟩
abbrev S256x640 : Shape := ⟨2, ![256, 640]⟩
abbrev S480x640 : Shape := ⟨2, ![480, 640]⟩
abbrev S480 : Shape := ⟨1, ![480]⟩
abbrev S480x1 : Shape := ⟨2, ![480, 1]⟩
abbrev S1x128 : Shape := ⟨2, ![1, 128]⟩
abbrev S8x1x1 : Shape := ⟨3, ![8, 1, 1]⟩

abbrev nBuf : Space → Nat
  | .hbm => 93
  | .vmem => 10
  | .smem => 0
  | _ => 0

abbrev bufTy : (tb : Table) → Fin (tcTables nBuf tb) → BufTy
  | .hbm, ⟨0, _⟩ => ⟨S8x480x640, .f32⟩
  | .hbm, ⟨1, _⟩ => ⟨S256x4, .f32⟩
  | .hbm, ⟨2, _⟩ => ⟨S8, .i32⟩
  | .hbm, ⟨3, _⟩ => ⟨S_, .f32⟩
  | .hbm, ⟨4, _⟩ => ⟨S256x4, .f32⟩
  | .hbm, ⟨5, _⟩ => ⟨S256x4, .f32⟩
  | .hbm, ⟨6, _⟩ => ⟨S256x1, .f32⟩
  | .hbm, ⟨7, _⟩ => ⟨S256, .f32⟩
  | .hbm, ⟨8, _⟩ => ⟨S256, .f32⟩
  | .hbm, ⟨9, _⟩ => ⟨S256, .i32⟩
  | .hbm, ⟨10, _⟩ => ⟨S256x1, .i32⟩
  | .hbm, ⟨11, _⟩ => ⟨S256x1, .f32⟩
  | .hbm, ⟨12, _⟩ => ⟨S256, .f32⟩
  | .hbm, ⟨13, _⟩ => ⟨S256, .f32⟩
  | .hbm, ⟨14, _⟩ => ⟨S256, .i32⟩
  | .hbm, ⟨15, _⟩ => ⟨S1x256, .i32⟩
  | .hbm, ⟨16, _⟩ => ⟨S256x1, .f32⟩
  | .hbm, ⟨17, _⟩ => ⟨S256, .f32⟩
  | .hbm, ⟨18, _⟩ => ⟨S256, .f32⟩
  | .hbm, ⟨19, _⟩ => ⟨S256, .i32⟩
  | .hbm, ⟨20, _⟩ => ⟨S256x1, .i32⟩
  | .hbm, ⟨21, _⟩ => ⟨S256x1, .f32⟩
  | .hbm, ⟨22, _⟩ => ⟨S256, .f32⟩
  | .hbm, ⟨23, _⟩ => ⟨S256, .f32⟩
  | .hbm, ⟨24, _⟩ => ⟨S256, .i32⟩
  | .hbm, ⟨25, _⟩ => ⟨S1x256, .i32⟩
  | .hbm, ⟨26, _⟩ => ⟨S8, .i32⟩
  | .hbm, ⟨27, _⟩ => ⟨S1, .i32⟩
  | .hbm, ⟨28, _⟩ => ⟨S7, .i32⟩
  | .hbm, ⟨29, _⟩ => ⟨S8, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S8, .i32⟩
  | .hbm, ⟨34, _⟩ => ⟨S_, .i32⟩
  | .hbm, ⟨35, _⟩ => ⟨S_, .i32⟩
  | .hbm, ⟨36, _⟩ => ⟨S8, .i32⟩
  | .hbm, ⟨37, _⟩ => ⟨S_, .i32⟩
  | .hbm, ⟨38, _⟩ => ⟨S256, .i32⟩
  | .hbm, ⟨39, _⟩ => ⟨S_, .i32⟩
  | .hbm, ⟨40, _⟩ => ⟨S8, .i32⟩
  | .hbm, ⟨41, _⟩ => ⟨S8, .i1⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S8, .i32⟩
  | .hbm, ⟨46, _⟩ => ⟨S8x1, .i32⟩
  | .hbm, ⟨47, _⟩ => ⟨S_, .i32⟩
  | .hbm, ⟨48, _⟩ => ⟨S8, .i32⟩
  | .hbm, ⟨49, _⟩ => ⟨S256, .i32⟩
  | .hbm, ⟨50, _⟩ => ⟨S_, .i32⟩
  | .hbm, ⟨51, _⟩ => ⟨S_, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S1, .i32⟩
  | .hbm, ⟨65, _⟩ => ⟨S_, .i32⟩
  | .hbm, ⟨66, _⟩ => ⟨S256x1, .i32⟩
  | .hbm, ⟨67, _⟩ => ⟨S256x1, .i1⟩
  | .hbm, ⟨68, _⟩ => ⟨S1x1, .i32⟩
  | .hbm, ⟨69, _⟩ => ⟨S256x1, .i32⟩
  | .hbm, ⟨70, _⟩ => ⟨S256x1, .i1⟩
  | .hbm, ⟨71, _⟩ => ⟨S256x1, .i1⟩
  | .hbm, ⟨72, _⟩ => ⟨S_, .i1⟩
  | .hbm, ⟨73, _⟩ => ⟨S256, .i1⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S1x256, .i32⟩
  | .hbm, ⟨79, _⟩ => ⟨S8, .i32⟩
  | .hbm, ⟨80, _⟩ => ⟨S8x1, .i32⟩
  | .hbm, ⟨81, _⟩ => ⟨S8x256, .i32⟩
  | .hbm, ⟨82, _⟩ => ⟨S8x256, .i32⟩
  | .hbm, ⟨83, _⟩ => ⟨S8x256, .i1⟩
  | .hbm, ⟨84, _⟩ => ⟨S8x256, .bf16⟩
  | .hbm, ⟨85, _⟩ => ⟨S8x1x256, .bf16⟩
  | .hbm, ⟨86, _⟩ => ⟨S8x1x128, .f32⟩
  | .hbm, ⟨87, _⟩ => ⟨S8x1x1, .f32⟩
  | .hbm, ⟨88, _⟩ => ⟨S8, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .local _ .vmem, ⟨0, _⟩ => ⟨S1x480x640, .f32⟩
  | .local _ .vmem, ⟨1, _⟩ => ⟨S1x480x640, .f32⟩
  | .local _ .vmem, ⟨2, _⟩ => ⟨S256x1, .i32⟩
  | .local _ .vmem, ⟨3, _⟩ => ⟨S256x1, .i32⟩
  | .local _ .vmem, ⟨4, _⟩ => ⟨S1x256, .i32⟩
  | .local _ .vmem, ⟨5, _⟩ => ⟨S1x256, .i32⟩
  | .local _ .vmem, ⟨6, _⟩ => ⟨S1x1x256, .bf16⟩
  | .local _ .vmem, ⟨7, _⟩ => ⟨S1x1x256, .bf16⟩
  | .local _ .vmem, ⟨8, _⟩ => ⟨S1x1x128, .f32⟩
  | .local _ .vmem, ⟨9, _⟩ => ⟨S1x1x128, .f32⟩
  | _, _ => ⟨S8x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_call1_call0_c : Ref sig .tc := ⟨.hbm, 34, rfl⟩
abbrev main_call1_call0_v0 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_call2_call0_c : Ref sig .tc := ⟨.hbm, 50, rfl⟩
abbrev main_call2_call0_v0 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_c_4 : Ref sig .tc := ⟨.hbm, 75, rfl⟩
abbrev main_call3_v14 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_6 : Ref sig .tc := ⟨.hbm, 89, rfl⟩
abbrev main_v51 : Ref sig .tc := ⟨.hbm, 90, rfl⟩
abbrev main_cst_7 : Ref sig .tc := ⟨.hbm, 91, rfl⟩
abbrev main_v52 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x480x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S256x4 : S_.BroadcastsInDim S256x4 (![] : Fin 0 → Fin S256x4.rank)
  slices_S256x4_S256x1_0_0 : S256x4.Slices ![0, 0] S256x1
  shapeCasts_S256x1_S256 : S256x1.ShapeCasts S256
  shapeCasts_S256_S256x1 : S256.ShapeCasts S256x1
  slices_S256x4_S256x1_0_1 : S256x4.Slices ![0, 1] S256x1
  shapeCasts_S256_S1x256 : S256.ShapeCasts S1x256
  slices_S256x4_S256x1_0_2 : S256x4.Slices ![0, 2] S256x1
  slices_S256x4_S256x1_0_3 : S256x4.Slices ![0, 3] S256x1
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S256 : S_.BroadcastsInDim S256 (![] : Fin 0 → Fin S256.rank)
  bcast_S_S8 : S_.BroadcastsInDim S8 (![] : Fin 0 → Fin S8.rank)
  bcast_S8_S8x1_0 : S8.BroadcastsInDim S8x1 (![0] : Fin 1 → Fin S8x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S8x1_S8x256_0_1 : S8x1.BroadcastsInDim S8x256 (![0, 1] : Fin 2 → Fin S8x256.rank)
  shapeCasts_S8x256_S8x1x256 : S8x256.ShapeCasts S8x1x256
  iota_S480x256_d0_w32 : S480x256.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S480x256 : S1x256.Broadcasts S480x256
  iota_S256x640_d1_w32 : S256x640.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x640 : S256x1.Broadcasts S256x640
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  natLt_1_32 : 1 < 32
  bitsLt_bf16_f32 : FTy.bits .bf16 < FTy.bits .f32
  inb_S1x480x640_S1x480x640_0_0_0 : ∀ a, (![0, 0, 0] : Fin 3 → Nat) a + S1x480x640.size a ≤ S1x480x640.size a
  h_S1x480x640 : 0 < S1x480x640.numel
  shapeCasts_S1x480x640_S480x640 : S1x480x640.ShapeCasts S480x640
  reduces_S480x640_S480 : S480x640.Reduces [1] S480
  shapeCasts_S480_S480x1 : S480.ShapeCasts S480x1
  reduces_S480x1_S1 : S480x1.Reduces [0] S1
  inpos_S1_p0 : ∀ a, (![0] : Fin 1 → Nat) a < S1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  scatter_S8_S1_S__n_0_0_0_wf : ScatterDims.WF S8 S1 S_ [] [0] [0] 0
  scatter_S256_S8x1_S8_n_0_0_1_wf : ScatterDims.WF S256 S8x1 S8 [] [0] [0] 1
  gather_S8_S256x1_S256_n_0_n_n_0_1_1_wf : GatherDims.WF S8 S256x1 S256 [] [0] [] [0] [] 1 ![1]
  dot_S480x256_S256x640_S480x640_1_0_0_1_n_n_wf : DotDims.WF S480x256 S256x640 S480x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x480x640.size a ≤ S8x480x640.size a
  hwx0_0 : ∀ i : grid0.Coords, EltTy.bits .f32 = 32 ∨ (Rect.block (s := S8x480x640) S1x480x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .i32 = 32 ∨ (Rect.block (s := S256x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .i32 = 32 ∨ (Rect.block (s := S1x256) S1x256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .i32 = 32 ∨ (Rect.block (s := S1x256) S1x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S8x1x256.size a
  hwx0_5 : ∀ i : grid0.Coords, EltTy.bits .bf16 = 32 ∨ (Rect.block (s := S8x1x256) S1x1x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S256_S8x1_S8_n_0_0_1 : ScatterDims S256 S8x1 S8 where
  updateWindowDims := []
  insertedWindowDims := [0]
  scatterDimsToOperandDims := [0]
  indexVectorDim := 1
  wf := scatter_S256_S8x1_S8_n_0_0_1_wf
def gather_S8_S256x1_S256_n_0_n_n_0_1_1 : GatherDims S8 S256x1 S256 where
  offsetDims := []
  collapsedSliceDims := [0]
  operandBatchingDims := []
  startIndicesBatchingDims := []
  startIndexMap := [0]
  indexVectorDim := 1
  sliceSizes := ![1]
  wf := gather_S8_S256x1_S256_n_0_n_n_0_1_1_wf
def dot_S480x256_S256x640_S480x640_1_0_0_1_n_n : DotDims S480x256 S256x640 S480x640 where
  lhsContracting := [1]
  rhsContracting := [0]
  lhsNonContracting := [0]
  rhsNonContracting := [1]
  lhsBatch := []
  rhsBatch := []
  wf := dot_S480x256_S256x640_S480x640_1_0_0_1_n_n_wf

abbrev win0_0 : Pipeline.Window sig grid0 :=
  Pipeline.Window.ofSpec (Memref.whole main_arg0) S1x480x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x480x640 : Shape := ⟨3, ![8, 480, 640]⟩
abbrev S256x4 : Shape := ⟨2, ![256, 4]⟩
abbrev S8 : Shape := ⟨1, ![8]⟩
abbrev S_ : Shape := ⟨0, ![]⟩
abbrev S256x1 : Shape := ⟨2, ![256, 1]⟩
abbrev S256 : Shape := ⟨1, ![256]⟩
abbrev S480 : Shape := ⟨1, ![480]⟩
abbrev S640 : Shape := ⟨1, ![640]⟩
abbrev S1x480 : Shape := ⟨2, ![1, 480]⟩
abbrev S256x480 : Shape := ⟨2, ![256, 480]⟩
abbrev S1x640 : Shape := ⟨2, ![1, 640]⟩
abbrev S256x640 : Shape := ⟨2, ![256, 640]⟩
abbrev S256x480x1 : Shape := ⟨3, ![256, 480, 1]⟩
abbrev S256x1x640 : Shape := ⟨3, ![256, 1, 640]⟩
abbrev S256x480x640 : Shape := ⟨3, ![256, 480, 640]⟩
abbrev S1 : Shape := ⟨1, ![1]⟩
abbrev S7 : Shape := ⟨1, ![7]⟩
abbrev S8x1 : Shape := ⟨2, ![8, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S8x480x640, .f32⟩
  | 1 => ⟨S256x4, .f32⟩
  | 2 => ⟨S8, .i32⟩
  | 3 => ⟨S_, .f32⟩
  | 4 => ⟨S256x4, .f32⟩
  | 5 => ⟨S256x4, .f32⟩
  | 6 => ⟨S256x1, .f32⟩
  | 7 => ⟨S256, .f32⟩
  | 8 => ⟨S256, .f32⟩
  | 9 => ⟨S256, .i32⟩
  | 10 => ⟨S256x1, .f32⟩
  | 11 => ⟨S256, .f32⟩
  | 12 => ⟨S256, .f32⟩
  | 13 => ⟨S256, .i32⟩
  | 14 => ⟨S256x1, .f32⟩
  | 15 => ⟨S256, .f32⟩
  | 16 => ⟨S256, .f32⟩
  | 17 => ⟨S256, .i32⟩
  | 18 => ⟨S256x1, .f32⟩
  | 19 => ⟨S256, .f32⟩
  | 20 => ⟨S256, .f32⟩
  | 21 => ⟨S256, .i32⟩
  | 22 => ⟨S480, .i32⟩
  | 23 => ⟨S640, .i32⟩
  | 24 => ⟨S1x480, .i32⟩
  | 25 => ⟨S256x1, .i32⟩
  | 26 => ⟨S256x480, .i32⟩
  | 27 => ⟨S256x480, .i32⟩
  | 28 => ⟨S256x480, .i1⟩
  | 29 => ⟨S1x480, .i32⟩
  | 30 => ⟨S256x1, .i32⟩
  | 31 => ⟨S256x480, .i32⟩
  | 32 => ⟨S256x480, .i32⟩
  | 33 => ⟨S256x480, .i1⟩
  | 34 => ⟨S256x480, .i1⟩
  | 35 => ⟨S1x640, .i32⟩
  | 36 => ⟨S256x1, .i32⟩
  | 37 => ⟨S256x640, .i32⟩
  | 38 => ⟨S256x640, .i32⟩
  | 39 => ⟨S256x640, .i1⟩
  | 40 => ⟨S1x640, .i32⟩
  | 41 => ⟨S256x1, .i32⟩
  | 42 => ⟨S256x640, .i32⟩
  | 43 => ⟨S256x640, .i32⟩
  | 44 => ⟨S256x640, .i1⟩
  | 45 => ⟨S256x640, .i1⟩
  | 46 => ⟨S256x480x1, .i1⟩
  | 47 => ⟨S256x1x640, .i1⟩
  | 48 => ⟨S256x480x640, .i1⟩
  | 49 => ⟨S256x480x640, .i1⟩
  | 50 => ⟨S256x480x640, .i1⟩
  | 51 => ⟨S8, .i32⟩
  | 52 => ⟨S1, .i32⟩
  | 53 => ⟨S7, .i32⟩
  | 54 => ⟨S8, .i32⟩
  | 55 => ⟨S_, .i32⟩
  | 56 => ⟨S1, .i32⟩
  | 57 => ⟨S_, .i32⟩
  | 58 => ⟨S8, .i32⟩
  | 59 => ⟨S_, .i32⟩
  | 60 => ⟨S_, .i32⟩
  | 61 => ⟨S8, .i32⟩
  | 62 => ⟨S_, .i32⟩
  | 63 => ⟨S256, .i32⟩
  | 64 => ⟨S_, .i32⟩
  | 65 => ⟨S8, .i32⟩
  | 66 => ⟨S8, .i1⟩
  | 67 => ⟨S_, .i32⟩
  | 68 => ⟨S8, .i32⟩
  | 69 => ⟨S8, .i32⟩
  | 70 => ⟨S8, .i32⟩
  | 71 => ⟨S8x1, .i32⟩
  | 72 => ⟨S_, .i32⟩
  | 73 => ⟨S8, .i32⟩
  | 74 => ⟨S256, .i32⟩
  | 75 => ⟨S_, .i32⟩
  | 76 => ⟨S_, .i32⟩
  | 77 => ⟨S256, .i32⟩
  | 78 => ⟨S_, .i32⟩
  | 79 => ⟨S256, .i32⟩
  | 80 => ⟨S256, .i32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S256x1, .i32⟩
  | 89 => ⟨S1, .i32⟩
  | 90 => ⟨S_, .i32⟩
  | 91 => ⟨S256x1, .i32⟩
  | 92 => ⟨S256x1, .i1⟩
  | 93 => ⟨S1x1, .i32⟩
  | 94 => ⟨S256x1, .i32⟩
  | 95 => ⟨S256x1, .i1⟩
  | 96 => ⟨S256x1, .i1⟩
  | 97 => ⟨S_, .i1⟩
  | 98 => ⟨S256, .i1⟩
  | 99 => ⟨S256, .i32⟩
  | 100 => ⟨S_, .i32⟩
  | 101 => ⟨S256, .i32⟩
  | 102 => ⟨S256, .i32⟩
  | 103 => ⟨S256x480x640, .i32⟩
  | 104 => ⟨S_, .i32⟩
  | 105 => ⟨S8x480x640, .i32⟩
  | 106 => ⟨S256x1, .i32⟩
  | 107 => ⟨S8x480x640, .i32⟩
  | 108 => ⟨S_, .i32⟩
  | 109 => ⟨S8x480x640, .i32⟩
  | 110 => ⟨S8x480x640, .i1⟩
  | 111 => ⟨S8x480x640, .f32⟩
  | 112 => ⟨S_, .f32⟩
  | 113 => ⟨S8x480x640, .f32⟩
  | 114 => ⟨S8x480x640, .f32⟩
  | 115 => ⟨S_, .f32⟩
  | 116 => ⟨S8x480x640, .f32⟩
  | 117 => ⟨S8x480x640, .f32⟩
  | 118 => ⟨S_, .f32⟩
  | 119 => ⟨S8x480x640, .f32⟩
  | 120 => ⟨S8x480x640, .f32⟩
  | 121 => ⟨S8x480x640, .f32⟩
  | 122 => ⟨S8x480x640, .f32⟩
  | 123 => ⟨S8x480x640, .f32⟩
  | 124 => ⟨S_, .f32⟩
  | 125 => ⟨S_, .f32⟩
  | 126 => ⟨S_, .f32⟩
  | 127 => ⟨S_, .f32⟩
  | _ => ⟨S8x480x640, .f32⟩

abbrev hbmTy0_1 (i : Nat) : BufTy := match i % 128 with
  | 0 => ⟨S8x480x640, .f32⟩
  | 1 => ⟨S_, .f32⟩
  | 2 => ⟨S_, .f32⟩
  | 3 => ⟨S_, .f32⟩
  | 4 => ⟨S_, .f32⟩
  | 5 => ⟨S_, .f32⟩
  | _ => ⟨S8x480x640, .f32⟩

abbrev hbmTy (i : Nat) : BufTy := match i / 128 with
  | 0 => hbmTy0_0 i
  | 1 => hbmTy0_1 i
  | _ => ⟨S8x480x640, .f32⟩

abbrev bufTy : (tb : Table) → Fin (tcTables nBuf tb) → BufTy
  | .hbm, ⟨i, _⟩ => hbmTy i
  | _, _ => ⟨S8x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_call0_v0 : Ref sig .tc := ⟨.hbm, 52, rfl⟩
abbrev main_call0_v1 : Ref sig .tc := ⟨.hbm, 53, rfl⟩
abbrev main_v48 : Ref sig .tc := ⟨.hbm, 54, rfl⟩
abbrev main_c : Ref sig .tc := ⟨.hbm, 55, rfl⟩
abbrev main_v49 : Ref sig .tc := ⟨.hbm, 56, rfl⟩
abbrev main_c_0 : Ref sig .tc := ⟨.hbm, 57, rfl⟩
abbrev main_v50 : Ref sig .tc := ⟨.hbm, 58, rfl⟩
abbrev main_call1_call0_c : Ref sig .tc := ⟨.hbm, 59, rfl⟩
abbrev main_call1_call0_v0 : Ref sig .tc := ⟨.hbm, 60, rfl⟩
abbrev main_v51 : Ref sig .tc := ⟨.hbm, 61, rfl⟩
abbrev main_c_1 : Ref sig .tc := ⟨.hbm, 62, rfl⟩
abbrev main_v52 : Ref sig .tc := ⟨.hbm, 63, rfl⟩
abbrev main_c_2 : Ref sig .tc := ⟨.hbm, 64, rfl⟩
abbrev main_v53 : Ref sig .tc := ⟨.hbm, 65, rfl⟩
abbrev main_v54 : Ref sig .tc := ⟨.hbm, 66, rfl⟩
abbrev main_c_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_4 : Ref sig .tc := ⟨.hbm, 72, rfl⟩
abbrev main_v59 : Ref sig .tc := ⟨.hbm, 73, rfl⟩
abbrev main_v60 : Ref sig .tc := ⟨.hbm, 74, rfl⟩
abbrev main_call2_call0_c : Ref sig .tc := ⟨.hbm, 75, rfl⟩
abbrev main_call2_call0_v0 : Ref sig .tc := ⟨.hbm, 76, rfl⟩
abbrev main_v61 : Ref sig .tc := ⟨.hbm, 77, rfl⟩
abbrev main_c_5 : Ref sig .tc := ⟨.hbm, 78, rfl⟩
abbrev main_v62 : Ref sig .tc := ⟨.hbm, 79, rfl⟩
abbrev main_v63 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_c_4 : Ref sig .tc := ⟨.hbm, 100, rfl⟩
abbrev main_call3_v14 : Ref sig .tc := ⟨.hbm, 101, rfl⟩
abbrev main_v64 : Ref sig .tc := ⟨.hbm, 102, rfl⟩
abbrev main_v65 : Ref sig .tc := ⟨.hbm, 103, rfl⟩
abbrev main_c_6 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_7 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_8 : Ref sig .tc := ⟨.hbm, 112, rfl⟩
abbrev main_v72 : Ref sig .tc := ⟨.hbm, 113, rfl⟩
abbrev main_v73 : Ref sig .tc := ⟨.hbm, 114, rfl⟩
abbrev main_cst_9 : Ref sig .tc := ⟨.hbm, 115, rfl⟩
abbrev main_v74 : Ref sig .tc := ⟨.hbm, 116, rfl⟩
abbrev main_v75 : Ref sig .tc := ⟨.hbm, 117, rfl⟩
abbrev main_cst_10 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_11 : Ref sig .tc := ⟨.hbm, 124, rfl⟩
abbrev main_v81 : Ref sig .tc := ⟨.hbm, 125, rfl⟩
abbrev main_cst_12 : Ref sig .tc := ⟨.hbm, 126, rfl⟩
abbrev main_v82 : Ref sig .tc := ⟨.hbm, 127, rfl⟩
abbrev main_v83 : Ref sig .tc := ⟨.hbm, 128, rfl⟩
abbrev main_cst_13 : Ref sig .tc := ⟨.hbm, 129, rfl⟩
abbrev main_v84 : Ref sig .tc := ⟨.hbm, 130, rfl⟩
abbrev main_cst_14 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]

class Facts₀ : Prop where
  bcast_S_S256x4 : S_.BroadcastsInDim S256x4 (![] : Fin 0 → Fin S256x4.rank)
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S480_S1x480_1 : S480.BroadcastsInDim S1x480 (![1] : Fin 1 → Fin S1x480.rank)
  bcast_S256_S256x1_0 : S256.BroadcastsInDim S256x1 (![0] : Fin 1 → Fin S256x1.rank)
  bcast_S1x480_S256x480_0_1 : S1x480.BroadcastsInDim S256x480 (![0, 1] : Fin 2 → Fin S256x480.rank)
  bcast_S256x1_S256x480_0_1 : S256x1.BroadcastsInDim S256x480 (![0, 1] : Fin 2 → Fin S256x480.rank)
  bcast_S640_S1x640_1 : S640.BroadcastsInDim S1x640 (![1] : Fin 1 → Fin S1x640.rank)
  bcast_S1x640_S256x640_0_1 : S1x640.BroadcastsInDim S256x640 (![0, 1] : Fin 2 → Fin S256x640.rank)
  bcast_S256x1_S256x640_0_1 : S256x1.BroadcastsInDim S256x640 (![0, 1] : Fin 2 → Fin S256x640.rank)
  bcast_S256x480_S256x480x1_0_1 : S256x480.BroadcastsInDim S256x480x1 (![0, 1] : Fin 2 → Fin S256x480x1.rank)
  bcast_S256x640_S256x1x640_0_2 : S256x640.BroadcastsInDim S256x1x640 (![0, 2] : Fin 2 → Fin S256x1x640.rank)
  bcast_S256x480x1_S256x480x640_0_1_2 : S256x480x1.BroadcastsInDim S256x480x640 (![0, 1, 2] : Fin 3 → Fin S256x480x640.rank)
  bcast_S256x1x640_S256x480x640_0_1_2 : S256x1x640.BroadcastsInDim S256x480x640 (![0, 1, 2] : Fin 3 → Fin S256x480x640.rank)
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S256 : S_.BroadcastsInDim S256 (![] : Fin 0 → Fin S256.rank)
  bcast_S_S8 : S_.BroadcastsInDim S8 (![] : Fin 0 → Fin S8.rank)
  bcast_S8_S8x1_0 : S8.BroadcastsInDim S8x1 (![0] : Fin 1 → Fin S8x1.rank)
  reduceWindows_S256_S256_w256s1p255_0 : S256.ReduceWindows (![256] : Fin 1 → Nat) ![1] ![255] ![0] S256
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  natLt_1_32 : 1 < 32
  bcast_S_S8x480x640 : S_.BroadcastsInDim S8x480x640 (![] : Fin 0 → Fin S8x480x640.rank)
  reducesTo_S8x480x640_S_d0_1_2 : S8x480x640.ReducesTo [0, 1, 2] S_
  scatter_S8_S1_S__n_0_0_0_wf : ScatterDims.WF S8 S1 S_ [] [0] [0] 0
  scatter_S256_S8x1_S8_n_0_0_1_wf : ScatterDims.WF S256 S8x1 S8 [] [0] [0] 1
  gather_S8_S256x1_S256_n_0_n_n_0_1_1_wf : GatherDims.WF S8 S256x1 S256 [] [0] [] [0] [] 1 ![1]
  scatter_S8x480x640_S256x1_S256x480x640_12_0_0_1_wf : ScatterDims.WF S8x480x640 S256x1 S256x480x640 [1, 2] [0] [0] 1

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S256_S8x1_S8_n_0_0_1 : ScatterDims S256 S8x1 S8 where
  updateWindowDims := []
  insertedWindowDims := [0]
  scatterDimsToOperandDims := [0]
  indexVectorDim := 1
  wf := scatter_S256_S8x1_S8_n_0_0_1_wf
def gather_S8_S256x1_S256_n_0_n_n_0_1_1 : GatherDims S8 S256x1 S256 where
  offsetDims := []
  collapsedSliceDims := [0]
  operandBatchingDims := []
  startIndicesBatchingDims := []
  startIndexMap := [0]
  indexVectorDim := 1
  sliceSizes := ![1]
  wf := gather_S8_S256x1_S256_n_0_n_n_0_1_1_wf
def scatter_S8x480x640_S256x1_S256x480x640_12_0_0_1 : ScatterDims S8x480x640 S256x1 S256x480x640 where
  updateWindowDims := [1, 2]
  insertedWindowDims := [0]
  scatterDimsToOperandDims := [0]
  indexVectorDim := 1
  wf := scatter_S8x480x640_S256x1_S256x480x640_12_0_0_1_wf

class Facts : Prop extends Facts₀ where

variable [Facts]
-- ==== Proof.Spec.lean ====
/-
  The mathematics both programs compute, stated once over plain index types.

  256 boxes, each a half-open span of rows [v1, v2) and of columns [u1, u2) given as signed 32-bit words, and a
  32-bit image number per box.  Pixel (h, w) of image b is FOREGROUND when some box of image b covers it.  The loss
  is the mean over all 8·480·640 pixels of the per-pixel loss times a weight, 13 on the foreground and 1 elsewhere.
  One program adds up l·(1 + 12·f) image by image, row by row; the other adds the foreground part l·(13 f + (1 - f))·f
  and the background part l·(13 f + (1 - f))·(1 - f) over all pixels and divides each by the pixel count.
-/
import Idealize.ShloMosaic.PureOps.Ideal
import Idealize.ShloMosaic.Lib.ValueIdx

noncomputable section

namespace Raster

open Idealize.ShloMosaic

/-- The natural number `n` lies in the half-open span `[lo, hi)` of two words read SIGNED. -/
def inSpan (lo hi : BitVec 32) (n : Nat) : Prop := lo.toInt ≤ (n : Int) ∧ (n : Int) < hi.toInt

/-- Pixel `(h, w)` of image `b` is covered by some box `t` whose image number, read signed, is `b`. -/
def covered (u1 v1 u2 v2 bids : Fin 256 → BitVec 32) (b : Fin 8) (h : Fin 480) (w : Fin 640) : Prop :=
  ∃ t : Fin 256, (bids t).toInt = (b.val : Int) ∧ inSpan (v1 t) (v2 t) h.val ∧ inSpan (u1 t) (u2 t) w.val

open Classical in
/-- The foreground indicator as an extended real: 1 on covered pixels, 0 elsewhere. -/
def fg (u1 v1 u2 v2 bids : Fin 256 → BitVec 32) (b : Fin 8) (h : Fin 480) (w : Fin 640) : EReal :=
  if covered u1 v1 u2 v2 bids b h w then 1 else 0

theorem fg_zero_or_one (u1 v1 u2 v2 bids : Fin 256 → BitVec 32) (b : Fin 8) (h : Fin 480) (w : Fin 640) :
    fg u1 v1 u2 v2 bids b h w = 0 ∨ fg u1 v1 u2 v2 bids b h w = 1 := by
  unfold fg; split
  · exact Or.inr rfl
  · exact Or.inl rfl

/-- The pixel count 8·480·640 as an extended real. -/
def pixels : EReal := ((2457600 : ℝ) : EReal)

/-- The weighted mean, added image by image, row by row, with the weight written `1 + 12·f`. -/
def lossK (l f : Fin 8 → Fin 480 → Fin 640 → EReal) : EReal :=
  Ideal.div (∑ b : Fin 8, ∑ h : Fin 480, ∑ w : Fin 640, l b h w * (1 + ((12 : ℝ) : EReal) * f b h w)) pixels

/-- The weighted mean as foreground part plus background part, the weight written `13·f + 1·(1 - f)`. -/
def lossR (l f : Fin 8 → Fin 480 → Fin 640 → EReal) : EReal :=
  Ideal.div (∑ b : Fin 8, ∑ h : Fin 480, ∑ w : Fin 640,
      (l b h w * (((13 : ℝ) : EReal) * f b h w + 1 * (1 - f b h w))) * f b h w) pixels
  + Ideal.div (∑ b : Fin 8, ∑ h : Fin 480, ∑ w : Fin 640,
      (l b h w * (((13 : ℝ) : EReal) * f b h w + 1 * (1 - f b h w))) * (1 - f b h w)) pixels

/-- A rank-1 array of 256 words as a function of the box number. -/
abbrev boxes (x : (⟨1, ![256]⟩ : Shape).Idx → BitVec 32) : Fin 256 → BitVec 32 := fun t => x (ValueIdx.ix1 t)

/-- An 8×480×640 array as a function of image, row and column. -/
abbrev pix (x : (⟨3, ![8, 480, 640]⟩ : Shape).Idx → EReal) : Fin 8 → Fin 480 → Fin 640 → EReal :=
  fun b h w => x (ValueIdx.ix3 b h w)

end Raster

end
-- ==== Proof.KFlags.lean ====
/-
  Comparison bits as the propositions they encode, and the count that decides coverage.

  A signed comparison of a small natural number against a 32-bit word, read as a bit, is 1 exactly when the
  corresponding inequality of integers holds; the conjunction of two such bits is 1 exactly when the number lies in
  the half-open span.  A bit converted to a float is 1 or 0.  A finite sum of values each 0 or 1 exceeds one half
  exactly when some value is 1.
-/
import Idealize.ShloMosaic.PureOps.Ideal
import Idealize.ShloMosaic.Lib.WordArith
import proofs.«120499_j3238405341493_2_alg».proof.Proof.Spec

noncomputable section

namespace Cert.KernelIdeal.KValue

open Idealize.ShloMosaic Idealize.ShloMosaic.WordArith

/-- A natural number below 2³¹, as a 32-bit word read signed, is itself. -/
theorem toInt_ofNat_small (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  split <;> omega

/-- The bit "lo ≤ n and n < hi" (both signed) is 1 exactly when `n` lies in the span `[lo, hi)`. -/
theorem spanBit_eq_one_iff (lo hi : BitVec 32) (n : Nat) (hn : n < 2 ^ 31) :
    IntOp.andi (IntOp.cmpi .sge (BitVec.ofNat 32 n) lo) (IntOp.cmpi .slt (BitVec.ofNat 32 n) hi) = 1#1
      ↔ Raster.inSpan lo hi n := by
  simp only [IntOp.cmpi, andi_ofBool, ofBool_eq_one_iff, Bool.and_eq_true]
  rw [BitVec.sle_iff_toInt_le, BitVec.slt_iff_toInt_lt, toInt_ofNat_small n hn]
  exact Iff.rfl

/-- The bit "x = b" is 1 exactly when the word `x`, read signed, is the small natural number `b`. -/
theorem eqBit_eq_one_iff (x : BitVec 32) (b : Nat) (hb : b < 2 ^ 31) :
    IntOp.cmpi .eq x (BitVec.ofNat 32 b) = 1#1 ↔ x.toInt = (b : Int) := by
  simp only [IntOp.cmpi, ofBool_eq_one_iff, beq_iff_eq]
  constructor
  · rintro rfl; exact toInt_ofNat_small b hb
  · intro h; apply BitVec.eq_of_toInt_eq; rw [h, toInt_ofNat_small b hb]

/-- A bit widened to 32 bits and converted (signed) to a float is 1 when set, 0 otherwise. -/
theorem sitofp_bit (f : BitVec 1) :
    (FloatOps.sitofp (F := Ideal) .f32 (f.setWidth 32) : EReal) = if f = 1#1 then 1 else 0 := by
  rcases BitVec.eq_zero_or_eq_one f with rfl | rfl
  · show ((((BitVec.setWidth 32 0#1).toInt : ℤ) : ℝ) : EReal) = _
    have e : (BitVec.setWidth 32 0#1).toInt = 0 := by decide
    rw [e, if_neg (by decide)]; simp
  · show ((((BitVec.setWidth 32 1#1).toInt : ℤ) : ℝ) : EReal) = _
    have e : (BitVec.setWidth 32 1#1).toInt = 1 := by decide
    rw [e, if_pos rfl]; simp

/-- A bit converted (unsigned) to a float is 1 when set, 0 otherwise. -/
theorem uitofp_bit (φ : FTy) (f : BitVec 1) :
    (FloatOps.uitofp (F := Ideal) φ f : EReal) = if f = 1#1 then 1 else 0 := by
  rcases BitVec.eq_zero_or_eq_one f with rfl | rfl
  · show ((((0#1 : BitVec 1).toNat : ℕ) : ℝ) : EReal) = _
    have e : (0#1 : BitVec 1).toNat = 0 := by decide
    rw [e, if_neg (by decide)]; simp
  · show ((((1#1 : BitVec 1).toNat : ℕ) : ℝ) : EReal) = _
    have e : (1#1 : BitVec 1).toNat = 1 := by decide
    rw [e, if_pos rfl]; simp

/-- The product of two indicators is the indicator of the conjunction. -/
theorem ind_mul_ind (p q : Prop) [Decidable p] [Decidable q] :
    (if p then (1 : EReal) else 0) * (if q then (1 : EReal) else 0) = if p ∧ q then 1 else 0 := by
  by_cases hp : p <;> by_cases hq : q <;> simp [hp, hq]

/-- A finite sum of indicators exceeds one half exactly when some indicated proposition holds. -/
theorem half_lt_sum_ind {ι : Type} [Fintype ι] (P : ι → Prop) [DecidablePred P] :
    ((1 / 2 : ℝ) : EReal) < ∑ t, (if P t then (1 : EReal) else 0) ↔ ∃ t, P t := by
  constructor
  · intro h
    by_contra hne
    have hz : ∑ t, (if P t then (1 : EReal) else 0) = 0 :=
      Finset.sum_eq_zero fun t _ => if_neg fun ht => hne ⟨t, ht⟩
    rw [hz] at h
    have h' : ((1 / 2 : ℝ) : EReal) < ((0 : ℝ) : EReal) := by simpa using h
    rw [EReal.coe_lt_coe_iff] at h'
    norm_num at h'
  · rintro ⟨t, ht⟩
    have hnn : ∀ i ∈ (Finset.univ : Finset ι), (0 : EReal) ≤ (if P i then (1 : EReal) else 0) := fun i _ => by
      split
      · exact zero_le_one
      · exact le_refl _
    have h1 : ((1 / 2 : ℝ) : EReal) < 1 := by
      rw [← EReal.coe_one, EReal.coe_lt_coe_iff]; norm_num
    have h2 : (1 : EReal) = (if P t then (1 : EReal) else 0) := (if_pos ht).symm
    calc ((1 / 2 : ℝ) : EReal) < 1 := h1
      _ = (if P t then (1 : EReal) else 0) := h2
      _ ≤ ∑ t, (if P t then (1 : EReal) else 0) := Finset.single_le_sum hnn (Finset.mem_univ t)

/-- The comparison bit "the sum of indicators exceeds one half", converted to a float, is the indicator of
    "some indicated proposition holds". -/
theorem count_bit {ι : Type} [Fintype ι] (P : ι → Prop) [DecidablePred P] [Decidable (∃ t, P t)] :
    (FloatOps.sitofp (F := Ideal) .f32
        ((FloatOps.cmpf (F := Ideal) (φ := .f32) .ogt (∑ t, (if P t then (1 : EReal) else 0)) ((1 / 2 : ℝ) : EReal)).setWidth 32) : EReal)
      = if ∃ t, P t then 1 else 0 := by
  rw [sitofp_bit]
  refine if_congr ?_ rfl rfl
  show BitVec.ofBool (decide (((1 / 2 : ℝ) : EReal) < ∑ t, (if P t then (1 : EReal) else 0))) = 1#1 ↔ _
  rw [ofBool_eq_one_iff, decide_eq_true_iff]
  exact half_lt_sum_ind P

end Cert.KernelIdeal.KValue

end
-- ==== Proof.Consts.lean ====
/-
  The 32-bit float words this certificate's programs spell, as the extended reals their patterns denote:
  a pattern with sign bit s, exponent field e and mantissa field m denotes (-1)^s · (1 + m/2²³) · 2^(e-127).
-/
import Idealize.ShloMosaic.PureOps.Ideal
import proofs.«120499_j3238405341493_2_alg».proof.Proof.Spec

noncomputable section

namespace Raster

open Idealize.ShloMosaic

/-- `12.0`: sign 0, exponent 130, mantissa 1.5, that is 1.5 · 2³. -/
theorem w12 : Ideal.ofBits .f32 0x41400000#32 = ((12 : ℝ) : EReal) := by
  simp [Ideal.ofBits, Ideal.ieee, -EReal.coe_mul]; norm_num

/-- `13.0`: sign 0, exponent 130, mantissa 1.625, that is 1.625 · 2³. -/
theorem w13 : Ideal.ofBits .f32 0x41500000#32 = ((13 : ℝ) : EReal) := by
  simp [Ideal.ofBits, Ideal.ieee, -EReal.coe_mul]; norm_num

/-- `1.0`: sign 0, exponent 127, mantissa 1. -/
theorem w1 : Ideal.ofBits .f32 0x3F800000#32 = (1 : EReal) := by
  simp [Ideal.ofBits, Ideal.ieee, -EReal.coe_mul]; norm_num

/-- `0.5`: sign 0, exponent 126, mantissa 1. -/
theorem whalf : Ideal.ofBits .f32 0x3F000000#32 = ((1/2 : ℝ) : EReal) := by
  simp [Ideal.ofBits, Ideal.ieee, -EReal.coe_mul]; norm_num

/-- `2457600.0` = 8·480·640: sign 0, exponent 148, mantissa 1.171875, that is 1.171875 · 2²¹. -/
theorem wpixels : Ideal.ofBits .f32 0x4A160000#32 = Raster.pixels := by
  unfold Raster.pixels
  simp [Ideal.ofBits, Ideal.ieee, -EReal.coe_mul]; norm_num

/-- `+0.0` denotes `0`. -/
theorem w0 : Ideal.ofBits .f32 0x00000000#32 = (0 : EReal) := by
  simp [Ideal.ofBits, Ideal.ieee]

end Raster

end
-- ==== Proof.KernelBody.lean ====
/-
  The kernel body's arithmetic, read at an index.

  For one image the body forms, for every row h and box t, the bit "h lies in box t's row span" times the box's
  one-hot entry for this image, and for every box t and column w the bit "w lies in box t's column span"; the
  product of the two matrices counts the boxes of this image covering pixel (h, w); the weight is 1 plus 12 where the
  count exceeds one half; the result is the sum over the pixels of loss times weight, repeated along 128 lanes.
-/
import proofs.«120499_j3238405341493_2_alg».proof.Proof.Gen.KernelIdeal.Skeleton
import proofs.«120499_j3238405341493_2_alg».proof.Proof.KFlags
import proofs.«120499_j3238405341493_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-! ## The stages of the weight -/

/-- The bit "row h lies in box t's row span", for every row and box. -/
def rowBit (lo hi : Vec Ideal S1x256 .i32) : IVec S480x256 1 :=
  andi (cmpi .sge (iota .tc S480x256 32 [0] iota_S480x256_d0_w32)
      (broadcastTo S480x256 (shapeCast S1x256 (shapeCast S1x256 lo shapeCasts_S1x256_S1x256) shapeCasts_S1x256_S1x256) broadcasts_S1x256_S480x256))
    (cmpi .slt (iota .tc S480x256 32 [0] iota_S480x256_d0_w32)
      (broadcastTo S480x256 (shapeCast S1x256 (shapeCast S1x256 hi shapeCasts_S1x256_S1x256) shapeCasts_S1x256_S1x256) broadcasts_S1x256_S480x256))

/-- The bit "column w lies in box t's column span", for every box and column. -/
def colBit (lo hi : Vec Ideal S256x1 .i32) : IVec S256x640 1 :=
  andi (cmpi .sge (iota .tc S256x640 32 [1] iota_S256x640_d1_w32)
      (broadcastTo S256x640 (shapeCast S256x1 (shapeCast S256x1 lo shapeCasts_S256x1_S256x1) shapeCasts_S256x1_S256x1) broadcasts_S256x1_S256x640))
    (cmpi .slt (iota .tc S256x640 32 [1] iota_S256x640_d1_w32)
      (broadcastTo S256x640 (shapeCast S256x1 (shapeCast S256x1 hi shapeCasts_S256x1_S256x1) shapeCasts_S256x1_S256x1) broadcasts_S256x1_S256x640))

/-- The left factor: the row bits as floats, each box's column scaled by its one-hot entry. -/
def lhsM (lo hi : Vec Ideal S1x256 .i32) (oh : Vec Ideal S1x1x256 .bf16) : FVec Ideal S480x256 .bf16 :=
  mulf (truncf .bf16 (sitofp .f32 (extui 32 (rowBit lo hi) natLt_1_32)) bitsLt_bf16_f32)
    (broadcastTo S480x256 (shapeCast S1x256 oh shapeCasts_S1x1x256_S1x256) broadcasts_S1x256_S480x256)

/-- The right factor: the column bits as floats. -/
def rhsM (lo hi : Vec Ideal S256x1 .i32) : FVec Ideal S256x640 .bf16 :=
  truncf .bf16 (sitofp .f32 (extui 32 (colBit lo hi) natLt_1_32)) bitsLt_bf16_f32

/-- The generated weight term is these stages composed. -/
theorem pay2_eq (v1 v5 : Vec Ideal S1x256 .i32) (v13 v17 : Vec Ideal S256x1 .i32) (v24 : Vec Ideal S1x1x256 .bf16) :
    k0_pay2 (F := Ideal) v1 v5 v13 v17 v24
      = addf (broadcast S480x640 (Scalar.ofBits .f32 0x3F800000#32))
          (mulf (broadcast S480x640 (Scalar.ofBits .f32 0x41400000#32))
            (sitofp .f32 (extui 32 (cmpf .ogt
              (matmul dot_S480x256_S256x640_S480x640_1_0_0_1_n_n none (lhsM v1 v5 v24) (rhsM v13 v17) (constant S480x640 .f32 0x00000000#32))
              (broadcast S480x640 (Scalar.ofBits .f32 0x3F000000#32))) natLt_1_32))) := rfl

/-! ## Indicators -/

open Classical in
/-- The indicator of a proposition as an extended real. -/
def ind (p : Prop) : EReal := if p then 1 else 0

theorem ind_mul (p q : Prop) : ind p * ind q = ind (p ∧ q) := by
  unfold ind; by_cases hp : p <;> by_cases hq : q <;> simp [hp, hq]

theorem fg_eq_ind (u1 v1 u2 v2 bids : Fin 256 → BitVec 32) (b : Fin 8) (h : Fin 480) (w : Fin 640) :
    Raster.fg u1 v1 u2 v2 bids b h w = ind (Raster.covered u1 v1 u2 v2 bids b h w) := rfl

open Classical in
/-- A bit widened and converted to a float is the indicator of the proposition the bit encodes. -/
theorem sitofp_bit_ind (f : BitVec 1) (p : Prop) (hp : f = 1#1 ↔ p) :
    (FloatOps.sitofp (F := Ideal) .f32 (f.setWidth 32) : EReal) = ind p := by
  rw [sitofp_bit]; unfold ind; exact if_congr hp rfl rfl

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stages at coordinates -/

theorem rowBit_apply (lo hi : Vec Ideal S1x256 .i32) (h : Fin 480) (t : Fin 256) :
    rowBit lo hi (ix2 h t)
      = IntOp.andi (IntOp.cmpi .sge (BitVec.ofNat 32 h.val) (lo (ix2 (0 : Fin 1) t)))
          (IntOp.cmpi .slt (BitVec.ofNat 32 h.val) (hi (ix2 (0 : Fin 1) t))) := by
  unfold rowBit
  show IntOp.andi (IntOp.cmpi .sge (iota .tc S480x256 32 [0] _ (ix2 h t)) (broadcastTo S480x256 _ _ (ix2 h t)))
      (IntOp.cmpi .slt (iota .tc S480x256 32 [0] _ (ix2 h t)) (broadcastTo S480x256 _ _ (ix2 h t))) = _
  rw [iota_single_apply, broadcastTo_1b_ab_apply, broadcastTo_1b_ab_apply, shapeCast_self, shapeCast_self,
    shapeCast_self, shapeCast_self]

theorem colBit_apply (lo hi : Vec Ideal S256x1 .i32) (t : Fin 256) (w : Fin 640) :
    colBit lo hi (ix2 t w)
      = IntOp.andi (IntOp.cmpi .sge (BitVec.ofNat 32 w.val) (lo (ix2 t (0 : Fin 1))))
          (IntOp.cmpi .slt (BitVec.ofNat 32 w.val) (hi (ix2 t (0 : Fin 1)))) := by
  unfold colBit
  show IntOp.andi (IntOp.cmpi .sge (iota .tc S256x640 32 [1] _ (ix2 t w)) (broadcastTo S256x640 _ _ (ix2 t w)))
      (IntOp.cmpi .slt (iota .tc S256x640 32 [1] _ (ix2 t w)) (broadcastTo S256x640 _ _ (ix2 t w))) = _
  rw [iota_single_apply, broadcastTo_a1_ab_apply, broadcastTo_a1_ab_apply, shapeCast_self, shapeCast_self,
    shapeCast_self, shapeCast_self]

/-- The left factor at (h, t): the indicator of "row h in box t's row span" times box t's one-hot entry. -/
theorem lhsM_apply (lo hi : Vec Ideal S1x256 .i32) (oh : Vec Ideal S1x1x256 .bf16) (h : Fin 480) (t : Fin 256) :
    lhsM lo hi oh (ix2 h t)
      = ind (Raster.inSpan (lo (ix2 (0 : Fin 1) t)) (hi (ix2 (0 : Fin 1) t)) h.val) * oh (ix3 (0 : Fin 1) (0 : Fin 1) t) := by
  unfold lhsM
  show (FloatOps.sitofp (F := Ideal) .f32 ((rowBit lo hi (ix2 h t)).setWidth 32) : EReal)
      * broadcastTo S480x256 _ _ (ix2 h t) = _
  rw [broadcastTo_1b_ab_apply, shapeCast_1ab_ab_apply, rowBit_apply,
    sitofp_bit_ind _ _ (spanBit_eq_one_iff _ _ h.val (by have := h.isLt; omega))]

/-- The right factor at (t, w): the indicator of "column w in box t's column span". -/
theorem rhsM_apply (lo hi : Vec Ideal S256x1 .i32) (t : Fin 256) (w : Fin 640) :
    rhsM lo hi (ix2 t w) = ind (Raster.inSpan (lo (ix2 t (0 : Fin 1))) (hi (ix2 t (0 : Fin 1))) w.val) := by
  unfold rhsM
  show (FloatOps.sitofp (F := Ideal) .f32 ((colBit lo hi (ix2 t w)).setWidth 32) : EReal) = _
  rw [colBit_apply, sitofp_bit_ind _ _ (spanBit_eq_one_iff _ _ w.val (by have := w.isLt; omega))]

/-! ## The count of covering boxes -/

/-- The matrix product's dimension numbers: contract the left factor's columns against the right factor's rows. -/
abbrev D := dot_S480x256_S256x640_S480x640_1_0_0_1_n_n

theorem lhs_0 (j : S480x640.Idx) (k : D.contr.Idx) : (D.lhsIdx j k 0 : ℕ) = j 0 := by
  simp [DotDims.lhsIdx, D, dot_S480x256_S256x640_S480x640_1_0_0_1_n_n]; rfl
theorem lhs_1 (j : S480x640.Idx) (k : D.contr.Idx) : (D.lhsIdx j k 1 : ℕ) = k ⟨0, by decide⟩ := by
  simp [DotDims.lhsIdx, D, dot_S480x256_S256x640_S480x640_1_0_0_1_n_n]; rfl
theorem rhs_0 (j : S480x640.Idx) (k : D.contr.Idx) : (D.rhsIdx j k 0 : ℕ) = k ⟨0, by decide⟩ := by
  simp [DotDims.rhsIdx, D, dot_S480x256_S256x640_S480x640_1_0_0_1_n_n]; rfl
theorem rhs_1 (j : S480x640.Idx) (k : D.contr.Idx) : (D.rhsIdx j k 1 : ℕ) = j 1 := by
  simp [DotDims.rhsIdx, D, dot_S480x256_S256x640_S480x640_1_0_0_1_n_n]; rfl

/-- The product into the zero accumulator at (h, w) is the sum over the boxes of the factors' products. -/
theorem count_apply (L : FVec Ideal S480x256 .bf16) (R : FVec Ideal S256x640 .bf16) (h : Fin 480) (w : Fin 640) :
    matmul D none L R (constant S480x640 .f32 0x00000000#32) (ix2 h w) = ∑ t : Fin 256, L (ix2 h t) * R (ix2 t w) := by
  simp only [matmul]
  rw [Ideal.matmul_constant_zero_apply, ← Equiv.sum_comp (contrEquiv1 D 256 rfl rfl).symm]
  refine Finset.sum_congr rfl fun t _ => ?_
  have e1 : D.lhsIdx (ix2 h w) ((contrEquiv1 D 256 rfl rfl).symm t) = ix2 h t := by
    funext a; apply Fin.ext
    match a with
    | ⟨0, _⟩ => exact lhs_0 _ _
    | ⟨1, _⟩ => exact (lhs_1 _ _).trans (contrEquiv1_symm_val D 256 rfl rfl t)
  have e2 : D.rhsIdx (ix2 h w) ((contrEquiv1 D 256 rfl rfl).symm t) = ix2 t w := by
    funext a; apply Fin.ext
    match a with
    | ⟨0, _⟩ => exact (rhs_0 _ _).trans (contrEquiv1_symm_val D 256 rfl rfl t)
    | ⟨1, _⟩ => exact rhs_1 _ _
  rw [e1, e2]

open Classical in
/-- The bit "the sum of indicators exceeds one half", as a float, is the indicator of "some proposition holds". -/
theorem count_bit_ind {ι : Type} [Fintype ι] (P : ι → Prop) :
    (FloatOps.sitofp (F := Ideal) .f32
        ((FloatOps.cmpf (F := Ideal) (φ := .f32) .ogt (∑ t, ind (P t)) ((1 / 2 : ℝ) : EReal)).setWidth 32) : EReal)
      = ind (∃ t, P t) := by
  apply sitofp_bit_ind
  show BitVec.ofBool (decide (((1 / 2 : ℝ) : EReal) < ∑ t, ind (P t))) = 1#1 ↔ _
  rw [Idealize.ShloMosaic.WordArith.ofBool_eq_one_iff, decide_eq_true_iff]
  unfold ind
  exact half_lt_sum_ind P

/-! ## The weight at a pixel -/

/-- With the loaded blocks read as functions of the box number — the row spans `[loR, hiR)`, the column spans
    `[loC, hiC)`, the one-hot entries of image `b` — the weight at pixel (h, w) is 1 plus 12 times the foreground
    indicator of image `b`. -/
theorem pay2_apply (v1 v5 : Vec Ideal S1x256 .i32) (v13 v17 : Vec Ideal S256x1 .i32) (v24 : Vec Ideal S1x1x256 .bf16)
    (loR hiR loC hiC bids : Fin 256 → BitVec 32) (b : Fin 8)
    (h1 : ∀ t, v1 (ix2 (0 : Fin 1) t) = loR t) (h5 : ∀ t, v5 (ix2 (0 : Fin 1) t) = hiR t)
    (h13 : ∀ t, v13 (ix2 t (0 : Fin 1)) = loC t) (h17 : ∀ t, v17 (ix2 t (0 : Fin 1)) = hiC t)
    (h24 : ∀ t, v24 (ix3 (0 : Fin 1) (0 : Fin 1) t) = ind ((bids t).toInt = (b.val : Int)))
    (h : Fin 480) (w : Fin 640) :
    k0_pay2 (F := Ideal) v1 v5 v13 v17 v24 (ix2 h w)
      = 1 + ((12 : ℝ) : EReal) * Raster.fg loC loR hiC hiR bids b h w := by
  rw [pay2_eq]
  show Ideal.ofBits .f32 0x3F800000#32 + Ideal.ofBits .f32 0x41400000#32
      * (FloatOps.sitofp (F := Ideal) .f32 ((FloatOps.cmpf (F := Ideal) (φ := .f32) .ogt
          (matmul D none (lhsM v1 v5 v24) (rhsM v13 v17) (constant S480x640 .f32 0x00000000#32) (ix2 h w))
          (Ideal.ofBits .f32 0x3F000000#32)).setWidth 32) : EReal) = _
  rw [count_apply, Raster.w1, Raster.w12, Raster.whalf]
  simp only [lhsM_apply, rhsM_apply, h1, h5, h13, h17, h24, ind_mul]
  rw [count_bit_ind, fg_eq_ind]
  congr 3
  exact propext (exists_congr fun t => by tauto)

/-! ## The sum over the pixels -/

/-- Each row's sum of loss times weight. -/
def rowSums (W : FVec Ideal S480x640 .f32) (L : Vec Ideal S1x480x640 .f32) : FVec Ideal S480 .f32 :=
  multiReduction .add [1] S480 (mulf (shapeCast S480x640 L Gen.shapeCasts_S1x480x640_S480x640) W) 0x00000000#32
    Gen.reduces_S480x640_S480 (.inl rfl) rfl

/-- The sum of the rows' sums. -/
def total (W : FVec Ideal S480x640 .f32) (L : Vec Ideal S1x480x640 .f32) : Ideal .f32 :=
  extractAt ![0] (multiReduction .add [0] S1 (shapeCast S480x1 (rowSums W L) Gen.shapeCasts_S480_S480x1) 0x00000000#32
    Gen.reduces_S480x1_S1 (.inl rfl) rfl) Gen.inpos_S1_p0

/-- The generated result term is the total, repeated along the lanes. -/
theorem pay1_eq (W : FVec Ideal S480x640 .f32) (L : Vec Ideal S1x480x640 .f32) :
    k0_pay1 (F := Ideal) W L = shapeCast S1x1x128 (broadcast S1x128 (total W L)) Gen.shapeCasts_S1x128_S1x1x128 := rfl

theorem pay1_const (W : FVec Ideal S480x640 .f32) (L : Vec Ideal S1x480x640 .f32) (j : S1x1x128.Idx) :
    k0_pay1 (F := Ideal) W L j = total W L := by
  rw [pay1_eq]; rfl

/-- A row's sum, as a sum over its columns. -/
theorem rowSums_apply (W : FVec Ideal S480x640 .f32) (L : Vec Ideal S1x480x640 .f32) (h : Fin 480) :
    rowSums W L (ix1 h) = ∑ w : Fin 640, L (ix3 (0 : Fin 1) h w) * W (ix2 h w) := by
  unfold rowSums
  refine (Ideal.multiReduction_add_single _ 0x00000000#32 Gen.reduces_S480x640_S480 (.inl rfl) rfl (ix1 h)).trans ?_
  refine Finset.sum_congr rfl fun (w : Fin 640) _ => ?_
  have e : Gen.reduces_S480x640_S480.lift (ix1 h) w = ix2 h w := by
    funext a
    match a with
    | ⟨0, _⟩ => rfl
    | ⟨1, _⟩ => rfl
  rw [e]
  show shapeCast S480x640 L _ (ix2 h w) * W (ix2 h w) = _
  rw [shapeCast_1ab_ab_apply]

/-- The total, as the double sum over rows and columns. -/
theorem total_eq (W : FVec Ideal S480x640 .f32) (L : Vec Ideal S1x480x640 .f32) :
    total W L = ∑ h : Fin 480, ∑ w : Fin 640, L (ix3 (0 : Fin 1) h w) * W (ix2 h w) := by
  unfold total
  show multiReduction .add [0] S1 (shapeCast S480x1 (rowSums W L) Gen.shapeCasts_S480_S480x1) 0x00000000#32
    Gen.reduces_S480x1_S1 (.inl rfl) rfl (ix1 (0 : Fin 1)) = _
  refine (Ideal.multiReduction_add_single _ 0x00000000#32 Gen.reduces_S480x1_S1 (.inl rfl) rfl (ix1 (0 : Fin 1))).trans ?_
  refine Finset.sum_congr rfl fun (h : Fin 480) _ => ?_
  have e : Gen.reduces_S480x1_S1.lift (ix1 (0 : Fin 1)) h = ix2 h (0 : Fin 1) := by
    funext a
    match a with
    | ⟨0, _⟩ => rfl
    | ⟨1, _⟩ => rfl
  rw [e, shapeCast_apply _ _ (ix2 h (0 : Fin 1)) (ix1 h) (by
    rw [Shape.rowMajor_val_two, Shape.rowMajor_val_one]
    show h.val = h.val * 1 + 0
    omega)]
  exact rowSums_apply W L h

end Cert.KernelIdeal.KValue

end
-- ==== Proof.KernelPrologue.lean ====
/-
  The box arrays as the region finds them.

  Before the region the host reshapes each rank-1 array of 256 box bounds to the column or row the kernel's windows
  read: the left and right column bounds to 256×1, the lower and upper row bounds to 1×256.  Each window's array is
  the reshape of the corresponding rank-1 array, so its entry for box t is that array's entry t.
-/
import proofs.«120499_j3238405341493_2_alg».proof.Proof.Gen.KernelIdeal.Frame
import Idealize.ShloMosaic.Lib.StableHlo.Run
import Idealize.ShloMosaic.Lib.Tactic
import Idealize.ShloMosaic.PureOps.Ideal
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The left column bounds as a 256×1 column. -/
theorem V_v6 (c : Dev nD) : (V m c main_v6 : S256x1.Idx → BitVec 32)
    = shapeCast S256x1 (V m c main_v5 : S256.Idx → BitVec 32) Gen.shapeCasts_S256_S256x1 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxHeartbeats 4000000 in
/-- The lower row bounds as a 1×256 row. -/
theorem V_v11 (c : Dev nD) : (V m c main_v11 : S1x256.Idx → BitVec 32)
    = shapeCast S1x256 (V m c main_v10 : S256.Idx → BitVec 32) Gen.shapeCasts_S256_S1x256 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxHeartbeats 4000000 in
/-- The right column bounds as a 256×1 column. -/
theorem V_v16 (c : Dev nD) : (V m c main_v16 : S256x1.Idx → BitVec 32)
    = shapeCast S256x1 (V m c main_v15 : S256.Idx → BitVec 32) Gen.shapeCasts_S256_S256x1 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxHeartbeats 4000000 in
/-- The upper row bounds as a 1×256 row. -/
theorem V_v21 (c : Dev nD) : (V m c main_v21 : S1x256.Idx → BitVec 32)
    = shapeCast S1x256 (V m c main_v20 : S256.Idx → BitVec 32) Gen.shapeCasts_S256_S1x256 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- A rank-1 array of 256 entries cast to a 256×1 column reads, at `(t, 0)`, its entry `t`. -/
theorem col_apply {α : Type} (x : S256.Idx → α) (h : S256.ShapeCasts S256x1) (t : Fin 256) (z : Fin 1) :
    shapeCast S256x1 x h (ix2 t z) = x (ix1 t) :=
  shapeCast_apply x h _ _ (by
    have hz : z.val = 0 := by omega
    rw [Shape.rowMajor_val_two, Shape.rowMajor_val_one]
    show t.val = t.val * 1 + z.val
    omega)

/-- Box `t`'s entry of each window's array is entry `t` of the rank-1 array it reshapes. -/
theorem V_v6_apply (c : Dev nD) (t : Fin 256) (z : Fin 1) :
    (V m c main_v6 : S256x1.Idx → BitVec 32) (ix2 t z) = (V m c main_v5 : S256.Idx → BitVec 32) (ix1 t) := by
  rw [V_v6, col_apply]
theorem V_v16_apply (c : Dev nD) (t : Fin 256) (z : Fin 1) :
    (V m c main_v16 : S256x1.Idx → BitVec 32) (ix2 t z) = (V m c main_v15 : S256.Idx → BitVec 32) (ix1 t) := by
  rw [V_v16, col_apply]
theorem V_v11_apply (c : Dev nD) (t : Fin 256) (z : Fin 1) :
    (V m c main_v11 : S1x256.Idx → BitVec 32) (ix2 z t) = (V m c main_v10 : S256.Idx → BitVec 32) (ix1 t) := by
  rw [V_v11, shapeCast_a_1a_apply]
theorem V_v21_apply (c : Dev nD) (t : Fin 256) (z : Fin 1) :
    (V m c main_v21 : S1x256.Idx → BitVec 32) (ix2 z t) = (V m c main_v20 : S256.Idx → BitVec 32) (ix1 t) := by
  rw [V_v21, shapeCast_a_1a_apply]

end Cert.KernelIdeal.KValue

end
-- ==== Proof.KernelOneHot.lean ====
/-
  The one-hot array as the region finds it.

  Before the region the host compares each box's image number with each of the eight image numbers 0 … 7 and
  converts the bit to a float: an 8×256 table, reshaped to 8×1×256.  Its entry for image b and box t is 1 when box
  t's image number, read signed, is b, and 0 otherwise.
-/
import proofs.«120499_j3238405341493_2_alg».proof.Proof.Gen.KernelIdeal.Frame
import Idealize.ShloMosaic.Lib.StableHlo.Run
import Idealize.ShloMosaic.Lib.Tactic
import Idealize.ShloMosaic.PureOps.Ideal
import Idealize.ShloMosaic.Lib.ValueIdx
import Idealize.ShloMosaic.Lib.ValueLayout
import Idealize.ShloMosaic.Lib.Pipeline.Value
import proofs.«120499_j3238405341493_2_alg».proof.Proof.KFlags
import Idealize.ShloMosaic.Lib.IdealHost

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The one-hot table: the reshape of the float of the bit "box t's image number equals b". -/
theorem V_v47 (c : Dev nD) : (V m c main_v47 : S8x1x256.Idx → EReal)
    = shapeCast S8x1x256 (uitofp (F := Ideal) .bf16 (cmpi .eq
        (broadcastInDim S8x256 ![0, 1] Gen.bcast_S1x256_S8x256_0_1
          (broadcastInDim S1x256 ![1] Gen.bcast_S256_S1x256_1 (V m c main_v39 : S256.Idx → BitVec 32)))
        (broadcastInDim S8x256 ![0, 1] Gen.bcast_S8x1_S8x256_0_1
          (broadcastInDim S8x1 ![0] Gen.bcast_S8_S8x1_0 (iotaInDim S8 32 0))))) Gen.shapeCasts_S8x256_S8x1x256 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

open Classical in
/-- The entry for image `b` and box `t`: 1 when the box's image number, read signed, is `b`, else 0. -/
theorem V_v47_apply (c : Dev nD) (b : Fin 8) (z : Fin 1) (t : Fin 256) :
    (V m c main_v47 : S8x1x256.Idx → EReal) (ix3 b z t)
      = if ((V m c main_v39 : S256.Idx → BitVec 32) (ix1 t)).toInt = (b.val : Int) then (1 : EReal) else 0 := by
  rw [V_v47]
  rw [shapeCast_apply _ _ (ix3 b z t) (ix2 b t) (by
    have hz : z.val = 0 := by omega
    rw [Shape.rowMajor_val_two, Shape.rowMajor_val_three]
    show b.val * 256 + t.val = (b.val * 1 + z.val) * 256 + t.val
    rw [hz]; omega)]
  show (FloatOps.uitofp (F := Ideal) .bf16 (IntOp.cmpi .eq
      (broadcastInDim S8x256 ![0, 1] _ (broadcastInDim S1x256 ![1] _ (V m c main_v39 : S256.Idx → BitVec 32)) (ix2 b t))
      (broadcastInDim S8x256 ![0, 1] _ (broadcastInDim S8x1 ![0] _ (iotaInDim S8 32 0)) (ix2 b t))) : EReal) = _
  rw [broadcastInDim_apply _ _ _ (ix2 b t) (ix2 (0 : Fin 1) t) (fun a => by
      match a with
      | ⟨0, _⟩ => rfl
      | ⟨1, _⟩ => rfl),
    broadcastInDim_apply _ _ _ (ix2 (0 : Fin 1) t) (ix1 t) (fun a => by
      match a with
      | ⟨0, _⟩ => rfl),
    broadcastInDim_apply _ _ _ (ix2 b t) (ix2 b (0 : Fin 1)) (fun a => by
      match a with
      | ⟨0, _⟩ => rfl
      | ⟨1, _⟩ => rfl),
    broadcastInDim_apply _ _ _ (ix2 b (0 : Fin 1)) (ix1 b) (fun a => by
      match a with
      | ⟨0, _⟩ => rfl)]
  rw [uitofp_bit]
  refine if_congr ?_ rfl rfl
  show IntOp.cmpi .eq _ (BitVec.ofNat 32 b.val) = 1#1 ↔ _
  exact eqBit_eq_one_iff _ b.val (by have := b.isLt; omega)

end Cert.KernelIdeal.KValue

end
-- ==== Proof.KernelBlocks.lean ====
/-
  From the body's blocks to the output array.

  Grid point b handles image b: it reads block b of the loss array and of the one-hot table and the whole of the four
  box-bound arrays, and writes block b — one row of 128 lanes — of the 8×1×128 output.  Every lane of that row holds
  the image's sum over its pixels of loss times weight, the weight 1 plus 12 times the foreground indicator.  The
  eight blocks tile the output, so after the run the output array is that sum image by image.
-/
import proofs.«120499_j3238405341493_2_alg».proof.Proof.Gen.KernelIdeal.Frame
import proofs.«120499_j3238405341493_2_alg».proof.Proof.KernelBody
import proofs.«120499_j3238405341493_2_alg».proof.Proof.KernelPrologue
import proofs.«120499_j3238405341493_2_alg».proof.Proof.KernelOneHot
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

/-! ## One point's value, over the loaded blocks as functions -/

/-- One image's sum over its pixels of loss times weight. -/
def imageSum (l f : Fin 8 → Fin 480 → Fin 640 → EReal) (b : Fin 8) : EReal :=
  ∑ h : Fin 480, ∑ w : Fin 640, l b h w * (1 + ((12 : ℝ) : EReal) * f b h w)

theorem lossK_eq (l f : Fin 8 → Fin 480 → Fin 640 → EReal) :
    Raster.lossK l f = Ideal.div (∑ b : Fin 8, imageSum l f b) Raster.pixels := rfl

/-- With the loaded blocks read as functions — the image's loss, the four box bounds, the image's one-hot entries —
    every lane of the body's result is the image's sum. -/
theorem point_value (x0 : Vec Ideal S1x480x640 .f32) (x1 x2 : Vec Ideal S256x1 .i32) (x3 x4 : Vec Ideal S1x256 .i32)
    (x5 : Vec Ideal S1x1x256 .bf16) (l : Fin 8 → Fin 480 → Fin 640 → EReal) (u1 v1 u2 v2 bids : Fin 256 → BitVec 32) (b : Fin 8)
    (h0 : ∀ h w, x0 (ix3 (0 : Fin 1) h w) = l b h w)
    (h1 : ∀ t, x1 (ix2 t (0 : Fin 1)) = u1 t) (h2 : ∀ t, x2 (ix2 t (0 : Fin 1)) = u2 t)
    (h3 : ∀ t, x3 (ix2 (0 : Fin 1) t) = v1 t) (h4 : ∀ t, x4 (ix2 (0 : Fin 1) t) = v2 t)
    (h5 : ∀ t, x5 (ix3 (0 : Fin 1) (0 : Fin 1) t) = ind ((bids t).toInt = (b.val : Int))) (y : S1x1x128.Idx) :
    k0_pay1 (F := Ideal) (k0_pay2 (F := Ideal) x3 x4 x1 x2 x5) x0 y = imageSum l (Raster.fg u1 v1 u2 v2 bids) b := by
  rw [pay1_const, total_eq]
  unfold imageSum
  refine Finset.sum_congr rfl fun h _ => Finset.sum_congr rfl fun w _ => ?_
  rw [h0, pay2_apply x3 x4 x1 x2 x5 v1 v2 u1 u2 bids b h3 h4 h1 h2 h5]

/-! ## The index maps, decided over the eight grid points -/

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Point t takes block t of the loss array, of the one-hot table and of the output, and block 0 — the whole — of
    each box-bound array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The image a grid point handles. -/
def img (t : Fin cfg0.N) : Fin 8 := ⟨t.val, Nat.lt_of_lt_of_eq t.isLt (show cfg0.N = 8 from N_0)⟩

/-! ## The input blocks at a point, read by coordinates -/

/-- The indicator, whichever way its proposition is decided. -/
theorem ind_eq_ite (p : Prop) [Decidable p] : ind p = if p then (1 : EReal) else 0 := by
  unfold ind; by_cases hp : p <;> simp [hp]

theorem iblk0_apply (c : Dev nD) (t : Fin cfg0.N) (h : Fin 480) (w : Fin 640) :
    iblk m c 0 t (ix3 (0 : Fin 1) h w) = Raster.pix (V m c main_arg0) (img t) h w := by
  obtain ⟨e0, e1, e2, -⟩ := idx_facts t
  unfold iblk
  show (V m c main_arg0 : S8x480x640.Idx → EReal) (((cfg0.win 0).blk t).view.emb (ix3 (0 : Fin 1) h w)) = _
  refine congrArg (V m c main_arg0 : S8x480x640.Idx → EReal) (funext fun a => Fin.ext ?_)
  match a with
  | ⟨0, _⟩ => show win0_0.index t (0 : Fin 3) * 1 + 1 * 0 = t.val; omega
  | ⟨1, _⟩ => show win0_0.index t (1 : Fin 3) * 480 + 1 * h.val = h.val; omega
  | ⟨2, _⟩ => show win0_0.index t (2 : Fin 3) * 640 + 1 * w.val = w.val; omega

theorem iblk1_apply (c : Dev nD) (t : Fin cfg0.N) (k : Fin 256) :
    iblk m c 1 t (ix2 k (0 : Fin 1)) = Raster.boxes (V m c main_v5) k := by
  obtain ⟨-, -, -, e0, e1, -⟩ := idx_facts t
  unfold iblk
  show (V m c main_v6 : S256x1.Idx → BitVec 32) (((cfg0.win 1).blk t).view.emb (ix2 k (0 : Fin 1))) = _
  refine Eq.trans (congrArg (V m c main_v6 : S256x1.Idx → BitVec 32) (funext fun a => Fin.ext ?_)) (V_v6_apply m c k 0)
  match a with
  | ⟨0, _⟩ => show win0_1.index t (0 : Fin 2) * 256 + 1 * k.val = k.val; omega
  | ⟨1, _⟩ => show win0_1.index t (1 : Fin 2) * 1 + 1 * 0 = 0; omega

theorem iblk2_apply (c : Dev nD) (t : Fin cfg0.N) (k : Fin 256) :
    iblk m c 2 t (ix2 k (0 : Fin 1)) = Raster.boxes (V m c main_v15) k := by
  obtain ⟨-, -, -, -, -, e0, e1, -⟩ := idx_facts t
  unfold iblk
  show (V m c main_v16 : S256x1.Idx → BitVec 32) (((cfg0.win 2).blk t).view.emb (ix2 k (0 : Fin 1))) = _
  refine Eq.trans (congrArg (V m c main_v16 : S256x1.Idx → BitVec 32) (funext fun a => Fin.ext ?_)) (V_v16_apply m c k 0)
  match a with
  | ⟨0, _⟩ => show win0_2.index t (0 : Fin 2) * 256 + 1 * k.val = k.val; omega
  | ⟨1, _⟩ => show win0_2.index t (1 : Fin 2) * 1 + 1 * 0 = 0; omega

theorem iblk3_apply (c : Dev nD) (t : Fin cfg0.N) (k : Fin 256) :
    iblk m c 3 t (ix2 (0 : Fin 1) k) = Raster.boxes (V m c main_v10) k := by
  obtain ⟨-, -, -, -, -, -, -, e0, e1, -⟩ := idx_facts t
  unfold iblk
  show (V m c main_v11 : S1x256.Idx → BitVec 32) (((cfg0.win 3).blk t).view.emb (ix2 (0 : Fin 1) k)) = _
  refine Eq.trans (congrArg (V m c main_v11 : S1x256.Idx → BitVec 32) (funext fun a => Fin.ext ?_)) (V_v11_apply m c k 0)
  match a with
  | ⟨0, _⟩ => show win0_3.index t (0 : Fin 2) * 1 + 1 * 0 = 0; omega
  | ⟨1, _⟩ => show win0_3.index t (1 : Fin 2) * 256 + 1 * k.val = k.val; omega

theorem iblk4_apply (c : Dev nD) (t : Fin cfg0.N) (k : Fin 256) :
    iblk m c 4 t (ix2 (0 : Fin 1) k) = Raster.boxes (V m c main_v20) k := by
  obtain ⟨-, -, -, -, -, -, -, -, -, e0, e1, -⟩ := idx_facts t
  unfold iblk
  show (V m c main_v21 : S1x256.Idx → BitVec 32) (((cfg0.win 4).blk t).view.emb (ix2 (0 : Fin 1) k)) = _
  refine Eq.trans (congrArg (V m c main_v21 : S1x256.Idx → BitVec 32) (funext fun a => Fin.ext ?_)) (V_v21_apply m c k 0)
  match a with
  | ⟨0, _⟩ => show win0_4.index t (0 : Fin 2) * 1 + 1 * 0 = 0; omega
  | ⟨1, _⟩ => show win0_4.index t (1 : Fin 2) * 256 + 1 * k.val = k.val; omega

theorem iblk5_apply (c : Dev nD) (t : Fin cfg0.N) (k : Fin 256) :
    iblk m c 5 t (ix3 (0 : Fin 1) (0 : Fin 1) k) = ind ((Raster.boxes (V m c main_v39) k).toInt = ((img t).val : Int)) := by
  obtain ⟨-, -, -, -, -, -, -, -, -, -, -, e0, e1, e2, -⟩ := idx_facts t
  unfold iblk
  show (V m c main_v47 : S8x1x256.Idx → EReal) (((cfg0.win 5).blk t).view.emb (ix3 (0 : Fin 1) (0 : Fin 1) k)) = _
  have e : ((cfg0.win 5).blk t).view.emb (ix3 (0 : Fin 1) (0 : Fin 1) k) = ix3 (img t) (0 : Fin 1) k := by
    funext a; apply Fin.ext
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 256 + 1 * k.val = k.val; omega
  exact (congrArg (V m c main_v47 : S8x1x256.Idx → EReal) e).trans ((V_v47_apply m c (img t) 0 k).trans (ind_eq_ite _).symm)

/-! ## The output array -/

/-- What the output array ends holding: at (b, 0, lane), image b's sum. -/
abbrev G (c : Dev nD) : S8x1x128.Idx → EReal := fun i =>
  imageSum (Raster.pix (V m c main_arg0))
    (Raster.fg (Raster.boxes (V m c main_v5)) (Raster.boxes (V m c main_v10)) (Raster.boxes (V m c main_v15))
      (Raster.boxes (V m c main_v20)) (Raster.boxes (V m c main_v39))) (i 0)

/-- What point t writes back is block t of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz3]
  simp only [View.ld_unit_zero (S := S1x256) hz2, View.ld_unit_zero (S := S256x1) hz2,
    View.ld_unit_zero (S := S1x1x256) hz3, View.ld_unit_zero (S := S1x480x640) hz3]
  funext y
  obtain ⟨-, -, -, -, -, -, -, -, -, -, -, -, -, -, e0, -⟩ := idx_facts t
  show k0_pay1 (F := Ideal) (k0_pay2 (F := Ideal) (iblk m c 3 t) (iblk m c 4 t) (iblk m c 1 t) (iblk m c 2 t) (iblk m c 5 t)) (iblk m c 0 t) y
      = G m c (((cfg0.win 6).blk t).view.emb y)
  refine (point_value (iblk m c 0 t) (iblk m c 1 t) (iblk m c 2 t) (iblk m c 3 t) (iblk m c 4 t) (iblk m c 5 t)
    (Raster.pix (V m c main_arg0)) (Raster.boxes (V m c main_v5)) (Raster.boxes (V m c main_v10)) (Raster.boxes (V m c main_v15))
    (Raster.boxes (V m c main_v20)) (Raster.boxes (V m c main_v39)) (img t)
    (iblk0_apply m c t) (iblk1_apply m c t) (iblk2_apply m c t) (iblk3_apply m c t) (iblk4_apply m c t) (iblk5_apply m c t) y).trans ?_
  refine congrArg _ (Fin.ext ?_)
  show t.val = win0_6.index t (0 : Fin 3) * 1 + 1 * (y 0).val
  have hy : (y 0).val < 1 := (y 0).isLt
  omega

/-- An index of the output is in point t's block iff each coordinate is in the block's range on its axis. -/
theorem mem_blk (t : Fin cfg0.N) (i : S8x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v48).slice (win0_6.rect t)).set ↔ _
  rw [View.set_slice_whole, Rect.mem_set_unit]
  exact Iff.rfl

/-- Every index of the output lies in the block of the point its first coordinate names. -/
theorem cover (i : S8x1x128.Idx) :
    ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 128 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, -, -, -, -, -, -, -, e0, e1, e2⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 128 ≤ (i 2).val ∧ (i 2).val < win0_6.index t (2 : Fin 3) * 128 + 128; omega

/-- The output array after the run. -/
theorem final (c : Dev nD) : (dats m 0 c).arrAt 6 cfg0.N = G m c :=
  (dats m 0 c).arrAt_eq_of_cover 6 (G m c) (fun t _ => flushed_eq m c t) cover

end Cert.KernelIdeal.KValue

end
-- ==== Proof.KernelValue.lean ====
/-
  The kernel's result.

  After the region the host takes lane 0 of each image's row of the output array, adds the eight values from zero
  and divides by the pixel count 8·480·640.  With the output array holding each image's sum of loss times weight,
  the result is the weighted mean written image by image, row by row.  The three arguments end as launched.
-/
import proofs.«120499_j3238405341493_2_alg».proof.Proof.KernelBlocks
import Idealize.ShloMosaic.Lib.StableHlo.Run
import Idealize.ShloMosaic.Lib.IdealHost
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx

/-! ## The host's last lines, over any output array -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Lane 0 of each of the eight rows, added from zero, divided by the pixel count. -/
theorem tail_of_array (A : S8x1x128.Idx → EReal) (j : S_.Idx) :
    Host.divf (F := Ideal)
        (Host.reduceAdd (F := Ideal) (φ := .f32)
          (fun i => shapeCast S8 (extractStridedSlice S8x1x1 ![0, 0, 0] A Gen.slices_S8x1x128_S8x1x1_0_0_0) Gen.shapeCasts_S8x1x1_S8 i)
          (constant (F := Ideal) S_ .f32 0x00000000#32) Gen.reducesTo_S8_S_d0 Gen.h_S_)
        (constant (F := Ideal) S_ .f32 0x4A160000#32) j
      = Ideal.div (∑ b : Fin 8, A (ix3 b (0 : Fin 1) (0 : Fin 128))) Raster.pixels := by
  show Ideal.div _ (Ideal.ofBits .f32 0x4A160000#32) = _
  rw [Raster.wpixels]
  refine congrArg (fun s => Ideal.div s Raster.pixels) ?_
  refine (hostReduceAdd_apply _ _ Gen.reducesTo_S8_S_d0 Gen.h_S_ j).trans ?_
  refine (Ideal.hostReduceAdd_total Gen.reducesTo_S8_S_d0 (fun b => b.elim0) _ _ j).trans ?_
  show Ideal.ofBits .f32 0x00000000#32 + _ = _
  rw [Ideal.ofBits_zero_f32, zero_add, sum_idx1]
  refine Finset.sum_congr rfl fun (b : Fin 8) _ => ?_
  show shapeCast S8 (extractStridedSlice S8x1x1 ![0, 0, 0] A Gen.slices_S8x1x128_S8x1x1_0_0_0) Gen.shapeCasts_S8x1x1_S8 (ix1 b) = _
  rw [shapeCast_apply _ _ (ix1 b) (ix3 b (0 : Fin 1) (0 : Fin 1)) (by
    rw [Shape.rowMajor_val_three, Shape.rowMajor_val_one]
    show (b.val * 1 + 0) * 1 + 0 = b.val
    omega)]
  show A _ = A _
  refine congrArg A (funext fun a => Fin.ext ?_)
  match a with
  | ⟨0, _⟩ => show 0 + b.val = b.val; omega
  | ⟨1, _⟩ => rfl
  | ⟨2, _⟩ => rfl

variable (m : (ℓ : Loc nD τ sig) → Buf (Elt Ideal) ℓ) (ρ : Dev nD → PrngReg)

/-! ## The result buffer after the run -/

/-- What the lines after the region leave in the result buffer. -/
theorem tail_value (c : Dev nD) :
    (Pipeline.afterTail₀ cfgs (dats m) 0 (V0 m) [hostOps1] c main_v52 : S_.Idx → EReal)
      = fun _ => Raster.lossK (Raster.pix (V m c main_arg0))
          (Raster.fg (Raster.boxes (V m c main_v5)) (Raster.boxes (V m c main_v10)) (Raster.boxes (V m c main_v15))
            (Raster.boxes (V m c main_v20)) (Raster.boxes (V m c main_v39))) := by
  unfold Pipeline.afterTail₀
  show StableHlo.after hostOps1 _ (Proc.devRef .tc main_v52) = _
  after_results
  rw [Pipeline.withArrays_arr spec0 launch0.win.arr_inj c _ _ 6]
  funext j
  refine (tail_of_array ((dats m 0 c).arrAt 6 cfg0.N) j).trans ?_
  rw [final, lossK_eq]

/-! ## The run -/

/-- At the compiled mesh, from any memory with zero counters: every weakly fair execution of the program terminates,
    its result buffer holding the weighted mean of the loss — the weight 13 on the foreground of the boxes as the
    region finds them, 1 elsewhere — and its three arguments as launched. -/
theorem run : θ_run (defs (F := Ideal)) (onTc (τ := τ) (main (F := Ideal))) ⟨m, fun _ => 0, ρ⟩ (fun r => ∀ c : Dev nD,
      r.2.mem ((c.tc : Thread nD τ).loc main_v52)
        = (fun _ => Raster.lossK (Raster.pix (m ((c.tc : Thread nD τ).loc main_arg0)))
            (Raster.fg (Raster.boxes (Gen.V m c main_v5)) (Raster.boxes (Gen.V m c main_v10)) (Raster.boxes (Gen.V m c main_v15))
              (Raster.boxes (Gen.V m c main_v20)) (Raster.boxes (Gen.V m c main_v39))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v52 (Pipeline.mem_restRefs_of main_v52 (by decide) (by decide))).trans
        ((tail_value m c).trans (by rw [V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefOps.lean ====
/-
  The reference program's @main as two lists of host operations (its two printed halves, each function it calls
  written out over that call's own buffers), that running them in order IS @main, and the run: every weakly fair
  execution terminates with every buffer at the fold of the operations' results over the launch contents.
-/
import proofs.«120499_j3238405341493_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first half of @main: 64 operations, in order. -/
abbrev ops0 : List (HloOp τ sig (Elt F)) :=
  [ StableHlo.nullary main_cst (constant S_ .f32 0x40800000#32),
    StableHlo.unary main_cst main_v0 (broadcastInDim S256x4 ![] bcast_S_S256x4 : (⟨S_, .f32⟩ : BufTy).Contents (Elt F) → (⟨S256x4, .f32⟩ : BufTy).Contents (Elt F)),
    StableHlo.binary main_arg1 main_v0 main_v1 (Host.divf : (⟨S256x4, .f32⟩ : BufTy).Contents (Elt F) → (⟨S256x4, .f32⟩ : BufTy).Contents (Elt F) → (⟨S256x4, .f32⟩ : BufTy).Contents (Elt F)),
    StableHlo.unary main_v1 main_v2 ((extractStridedSlice S256x1 ![0, 0] · slices_S256x4_S256x1_0_0) : (⟨S256x4, .f32⟩ : BufTy).Contents (Elt F) → (⟨S256x1, .f32⟩ : BufTy).Contents (Elt F)),
    StableHlo.reshape main_v2 main_v3 rfl shapeCasts_S256x1_S256,
    StableHlo.unary main_v3 main_v4 (Host.floor : (⟨S256, .f32⟩ : BufTy).Contents (Elt F) → (⟨S256, .f32⟩ : BufTy).Contents (Elt F)),
    StableHlo.unary main_v4 main_v5 (fptosi 32 : (⟨S256, .f32⟩ : BufTy).Contents (Elt F) → (⟨S256, .i32⟩ : BufTy).Contents (Elt F)),
    StableHlo.unary main_v1 main_v6 ((extractStridedSlice S256x1 ![0, 1] · slices_S256x4_S256x1_0_1) : (⟨S256x4, .f32⟩ : BufTy).Contents (Elt F) → (⟨S256x1, .f32⟩ : BufTy).Contents (Elt F)),
    StableHlo.reshape main_v6 main_v7 rfl shapeCasts_S256x1_S256,
    StableHlo.unary main_v7 main_v8 (Host.floor : (⟨S256, .f32⟩ : BufTy).Contents (Elt F) → (⟨S256, .f32⟩ : BufTy).Contents (Elt F)),
    StableHlo.unary main_v8 main_v9 (fptosi 32 : (⟨S256, .f32⟩ : BufTy).Contents (Elt F) → (⟨S256, .i32⟩ : BufTy).Contents (Elt F)),
    StableHlo.unary main_v1 main_v10 ((extractStridedSlice S256x1 ![0, 2] · slices_S256x4_S256x1_0_2) : (⟨S256x4, .f32⟩ : BufTy).Contents (Elt F) → (⟨S256x1, .f32⟩ : BufTy).Contents (Elt F)),
    StableHlo.reshape main_v10 main_v11 rfl shapeCasts_S256x1_S256,
    StableHlo.unary main_v11 main_v12 (Host.ceil : (⟨S256, .f32⟩ : BufTy).Contents (Elt F) → (⟨S256, .f32⟩ : BufTy).Contents (Elt F)),
    StableHlo.unary main_v12 main_v13 (fptosi 32 : (⟨S256, .f32⟩ : BufTy).Contents (Elt F) → (⟨S256, .i32⟩ : BufTy).Contents (Elt F)),
    StableHlo.unary main_v1 main_v14 ((extractStridedSlice S256x1 ![0, 3] · slices_S256x4_S256x1_0_3) : (⟨S256x4, .f32⟩ : BufTy).Contents (Elt F) → (⟨S256x1, .f32⟩ : BufTy).Contents (Elt F)),
    StableHlo.reshape main_v14 main_v15 rfl shapeCasts_S256x1_S256,
    StableHlo.unary main_v15 main_v16 (Host.ceil : (⟨S256, .f32⟩ : BufTy).Contents (Elt F) → (⟨S256, .f32⟩ : BufTy).Contents (Elt F)),
    StableHlo.unary main_v16 main_v17 (fptosi 32 : (⟨S256, .f32⟩ : BufTy).Contents (Elt F) → (⟨S256, .i32⟩ : BufTy).Contents (Elt F)),
    StableHlo.nullary main_v18 (iotaInDim S480 32 0),
    StableHlo.nullary main_v19 (iotaInDim S640 32 0),
    StableHlo.unary main_v18 main_v20 (broadcastInDim S1x480 ![1] bcast_S480_S1x480_1 : (⟨S480, .i32⟩ : BufTy).Contents (Elt F) → (⟨S1x480, .i32⟩ : BufTy).Contents (Elt F)),
    StableHlo.unary main_v9 main_v21 (broadcastInDim S256x1 ![0] bcast_S256_S256x1_0 : (⟨S256, .i32⟩ : BufTy).Contents (Elt F) → (⟨S256x1, .i32⟩ : BufTy).Contents (Elt F)),
    StableHlo.unary main_v20 main_v22 (broadcastInDim S256x480 ![0, 1] bcast_S1x480_S256x480_0_1 : (⟨S1x480, .i32⟩ : BufTy).Contents (Elt F) → (⟨S256x480, .i32⟩ : BufTy).Contents (Elt F)),
    StableHlo.unary main_v21 main_v23 (broadcastInDim S256x480 ![0, 1] bcast_S256x1_S256x480_0_1 : (⟨S256x1, .i32⟩ : BufTy).Contents (Elt F) → (⟨S256x480, .i32⟩ : BufTy).Contents (Elt F)),
    StableHlo.binary main_v22 main_v23 main_v24 (cmpi .sge : (⟨S256x480, .i32⟩ : BufTy).Contents (Elt F) → (⟨S256x480, .i32⟩ : BufTy).Contents (Elt F) → (⟨S256x480, .i1⟩ : BufTy).Contents (Elt F)),
    StableHlo.unary main_v18 main_v25 (broadcastInDim S1x480 ![1] bcast_S480_S1x480_1 : (⟨S480, .i32⟩ : BufTy).Contents (Elt F) → (⟨S1x480, .i32⟩ : BufTy).Contents (Elt F)),
    StableHlo.unary main_v17 main_v26 (broadcastInDim S256x1 ![0] bcast_S256_S256x1_0 : (⟨S256, .i32⟩ : BufTy).Contents (Elt F) → (⟨S256x1, .i32⟩ : BufTy).Contents (Elt F)),
    StableHlo.unary main_v25 main_v27 (broadcastInDim S256x480 ![0, 1] bcast_S1x480_S256x480_0_1 : (⟨S1x480, .i32⟩ : BufTy).Contents (Elt F) → (⟨S256x480, .i32⟩ : BufTy).Contents (Elt F)),
    StableHlo.unary main_v26 main_v28 (broadcastInDim S256x480 ![0, 1] bcast_S256x1_S256x480_0_1 : (⟨S256x1, .i32⟩ : BufTy).Contents (Elt F) → (⟨S256x480, .i32⟩ : BufTy).Contents (Elt F)),
    StableHlo.binary main_v27 main_v28 main_v29 (cmpi .slt : (⟨S256x480, .i32⟩ : BufTy).Contents (Elt F) → (⟨S256x480, .i32⟩ : BufTy).Contents (Elt F) → (⟨S256x480, .i1⟩ : BufTy).Contents (Elt F)),
    StableHlo.binary main_v24 main_v29 main_v30 (andi : (⟨S256x480, .i1⟩ : BufTy).Contents (Elt F) → (⟨S256x480, .i1⟩ : BufTy).Contents (Elt F) → (⟨S256x480, .i1⟩ : BufTy).Contents (Elt F)),
    StableHlo.unary main_v19 main_v31 (broadcastInDim S1x640 ![1] bcast_S640_S1x640_1 : (⟨S640, .i32⟩ : BufTy).Contents (Elt F) → (⟨S1x640, .i32⟩ : BufTy).Contents (Elt F)),
    StableHlo.unary main_v5 main_v32 (broadcastInDim S256x1 ![0] bcast_S256_S256x1_0 : (⟨S256, .i32⟩ : BufTy).Contents (Elt F) → (⟨S256x1, .i32⟩ : BufTy).Contents (Elt F)),
    StableHlo.unary main_v31 main_v33 (broadcastInDim S256x640 ![0, 1] bcast_S1x640_S256x640_0_1 : (⟨S1x640, .i32⟩ : BufTy).Contents (Elt F) → (⟨S256x640, .i32⟩ : BufTy).Contents (Elt F)),
    StableHlo.unary main_v32 main_v34 (broadcastInDim S256x640 ![0, 1] bcast_S256x1_S256x640_0_1 : (⟨S256x1, .i32⟩ : BufTy).Contents (Elt F) → (⟨S256x640, .i32⟩ : BufTy).Contents (Elt F)),
    StableHlo.binary main_v33 main_v34 main_v35 (cmpi .sge : (⟨S256x640, .i32⟩ : BufTy).Contents (Elt F) → (⟨S256x640, .i32⟩ : BufTy).Contents (Elt F) → (⟨S256x640, .i1⟩ : BufTy).Contents (Elt F)),
    StableHlo.unary main_v19 main_v36 (broadcastInDim S1x640 ![1] bcast_S640_S1x640_1 : (⟨S640, .i32⟩ : BufTy).Contents (Elt F) → (⟨S1x640, .i32⟩ : BufTy).Contents (Elt F)),
    StableHlo.unary main_v13 main_v37 (broadcastInDim S256x1 ![0] bcast_S256_S256x1_0 : (⟨S256, .i32⟩ : BufTy).Contents (Elt F) → (⟨S256x1, .i32⟩ : BufTy).Contents (Elt F)),
    StableHlo.unary main_v36 main_v38 (broadcastInDim S256x640 ![0, 1] bcast_S1x640_S256x640_0_1 : (⟨S1x640, .i32⟩ : BufTy).Contents (Elt F) → (⟨S256x640, .i32⟩ : BufTy).Contents (Elt F)),
    StableHlo.unary main_v37 main_v39 (broadcastInDim S256x640 ![0, 1] bcast_S256x1_S256x640_0_1 : (⟨S256x1, .i32⟩ : BufTy).Contents (Elt F) → (⟨S256x640, .i32⟩ : BufTy).Contents (Elt F)),
    StableHlo.binary main_v38 main_v39 main_v40 (cmpi .slt : (⟨S256x640, .i32⟩ : BufTy).Contents (Elt F) → (⟨S256x640, .i32⟩ : BufTy).Contents (Elt F) → (⟨S256x640, .i1⟩ : BufTy).Contents (Elt F)),
    StableHlo.binary main_v35 main_v40 main_v41 (andi : (⟨S256x640, .i1⟩ : BufTy).Contents (Elt F) → (⟨S256x640, .i1⟩ : BufTy).Contents (Elt F) → (⟨S256x640, .i1⟩ : BufTy).Contents (Elt F)),
    StableHlo.unary main_v30 main_v42 (broadcastInDim S256x480x1 ![0, 1] bcast_S256x480_S256x480x1_0_1 : (⟨S256x480, .i1⟩ : BufTy).Contents (Elt F) → (⟨S256x480x1, .i1⟩ : BufTy).Contents (Elt F)),
    StableHlo.unary main_v41 main_v43 (broadcastInDim S256x1x640 ![0, 2] bcast_S256x640_S256x1x640_0_2 : (⟨S256x640, .i1⟩ : BufTy).Contents (Elt F) → (⟨S256x1x640, .i1⟩ : BufTy).Contents (Elt F)),
    StableHlo.unary main_v42 main_v44 (broadcastInDim S256x480x640 ![0, 1, 2] bcast_S256x480x1_S256x480x640_0_1_2 : (⟨S256x480x1, .i1⟩ : BufTy).Contents (Elt F) → (⟨S256x480x640, .i1⟩ : BufTy).Contents (Elt F)),
    StableHlo.unary main_v43 main_v45 (broadcastInDim S256x480x640 ![0, 1, 2] bcast_S256x1x640_S256x480x640_0_1_2 : (⟨S256x1x640, .i1⟩ : BufTy).Contents (Elt F) → (⟨S256x480x640, .i1⟩ : BufTy).Contents (Elt F)),
    StableHlo.binary main_v44 main_v45 main_v46 (andi : (⟨S256x480x640, .i1⟩ : BufTy).Contents (Elt F) → (⟨S256x480x640, .i1⟩ : BufTy).Contents (Elt F) → (⟨S256x480x640, .i1⟩ : BufTy).Contents (Elt F)),
    StableHlo.nullary main_v47 (iotaInDim S8 32 0),
    StableHlo.TRef.unary (.of main_arg2 : StableHlo.TRef sig ⟨S8, .i32⟩) (.of main_call0_v0 : StableHlo.TRef sig ⟨S1, .i32⟩) (extractStridedSlice S1 ![7] · slices_S8_S1_7),
    StableHlo.TRef.unary (.of main_arg2 : StableHlo.TRef sig ⟨S8, .i32⟩) (.of main_call0_v1 : StableHlo.TRef sig ⟨S7, .i32⟩) (extractStridedSlice S7 ![0] · slices_S8_S7_0),
    StableHlo.TRef.binary (.of main_call0_v0 : StableHlo.TRef sig ⟨S1, .i32⟩) (.of main_call0_v1 : StableHlo.TRef sig ⟨S7, .i32⟩) (.of main_v48 : StableHlo.TRef sig ⟨S8, .i32⟩) (fun a b => concatenate S8 0 [⟨S1, a⟩, ⟨S7, b⟩] concatenates_S1_S7_S8_d0),
    StableHlo.nullary main_c (constantI S_ 32 0#32),
    StableHlo.unary main_c main_v49 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v48 main_v49 main_c_0 main_v50 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v50 : StableHlo.TRef sig ⟨S8, .i32⟩) (.of main_call1_call0_v0 : StableHlo.TRef sig ⟨S_, .i32⟩) (.of main_v51 : StableHlo.TRef sig ⟨S8, .i32⟩) (fun x v => Host.reduceWindow IntOp.addi ![8] ![1] ![7] ![0] x v reduceWindows_S8_S8_w8s1p7_0 h_S_),
    StableHlo.nullary main_c_1 (constantI S_ 32 0#32),
    StableHlo.unary main_c_1 main_v52 (broadcastInDim S256 ![] bcast_S_S256 : (⟨S_, .i32⟩ : BufTy).Contents (Elt F) → (⟨S256, .i32⟩ : BufTy).Contents (Elt F)),
    StableHlo.nullary main_c_2 (constantI S_ 32 0#32),
    StableHlo.unary main_c_2 main_v53 (broadcastInDim S8 ![] bcast_S_S8 : (⟨S_, .i32⟩ : BufTy).Contents (Elt F) → (⟨S8, .i32⟩ : BufTy).Contents (Elt F)),
    StableHlo.binary main_v51 main_v53 main_v54 (cmpi .slt : (⟨S8, .i32⟩ : BufTy).Contents (Elt F) → (⟨S8, .i32⟩ : BufTy).Contents (Elt F) → (⟨S8, .i1⟩ : BufTy).Contents (Elt F)) ]

/-- The second half of @main: 67 operations, in order. -/
abbrev ops1 : List (HloOp τ sig (Elt F)) :=
  [ StableHlo.nullary main_c_3 (constantI S_ 32 256#32),
    StableHlo.unary main_c_3 main_v55 (broadcastInDim S8 ![] bcast_S_S8 : (⟨S_, .i32⟩ : BufTy).Contents (Elt F) → (⟨S8, .i32⟩ : BufTy).Contents (Elt F)),
    StableHlo.binary main_v51 main_v55 main_v56 (addi : (⟨S8, .i32⟩ : BufTy).Contents (Elt F) → (⟨S8, .i32⟩ : BufTy).Contents (Elt F) → (⟨S8, .i32⟩ : BufTy).Contents (Elt F)),
    StableHlo.ternary main_v54 main_v56 main_v51 main_v57 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v57 main_v58 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v59 (broadcastInDim S8 ![] bcast_S_S8 : (⟨S_, .i32⟩ : BufTy).Contents (Elt F) → (⟨S8, .i32⟩ : BufTy).Contents (Elt F)),
    StableHlo.ternary main_v52 main_v58 main_v59 main_v60 ((fun x i u => Host.scatter scatter_S256_S8x1_S8_n_0_0_1 IntOp.addi x i u) : (⟨S256, .i32⟩ : BufTy).Contents (Elt F) → (⟨S8x1, .i32⟩ : BufTy).Contents (Elt F) → (⟨S8, .i32⟩ : BufTy).Contents (Elt F) → (⟨S256, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v60 : StableHlo.TRef sig ⟨S256, .i32⟩) (.of main_call2_call0_v0 : StableHlo.TRef sig ⟨S_, .i32⟩) (.of main_v61 : StableHlo.TRef sig ⟨S256, .i32⟩) (fun x v => Host.reduceWindow IntOp.addi ![256] ![1] ![255] ![0] x v reduceWindows_S256_S256_w256s1p255_0 h_S_),
    StableHlo.nullary main_c_5 (constantI S_ 32 1#32),
    StableHlo.unary main_c_5 main_v62 (broadcastInDim S256 ![] bcast_S_S256 : (⟨S_, .i32⟩ : BufTy).Contents (Elt F) → (⟨S256, .i32⟩ : BufTy).Contents (Elt F)),
    StableHlo.binary main_v61 main_v62 main_v63 (subi : (⟨S256, .i32⟩ : BufTy).Contents (Elt F) → (⟨S256, .i32⟩ : BufTy).Contents (Elt F) → (⟨S256, .i32⟩ : BufTy).Contents (Elt F)),
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S256, .i32⟩) (broadcastInDim S256 ![] bcast_S_S256),
    StableHlo.TRef.binary (.of main_v63 : StableHlo.TRef sig ⟨S256, .i32⟩) (.of main_call3_v0 : StableHlo.TRef sig ⟨S256, .i32⟩) (.of main_call3_v1 : StableHlo.TRef sig ⟨S256, .i1⟩) (cmpi .slt),
    StableHlo.TRef.nullary (.of main_call3_c_0 : StableHlo.TRef sig ⟨S_, .i32⟩) (constantI S_ 32 8#32),
    StableHlo.TRef.unary (.of main_call3_c_0 : StableHlo.TRef sig ⟨S_, .i32⟩) (.of main_call3_v2 : StableHlo.TRef sig ⟨S256, .i32⟩) (broadcastInDim S256 ![] bcast_S_S256),
    StableHlo.TRef.binary (.of main_v63 : StableHlo.TRef sig ⟨S256, .i32⟩) (.of main_call3_v2 : StableHlo.TRef sig ⟨S256, .i32⟩) (.of main_call3_v3 : StableHlo.TRef sig ⟨S256, .i32⟩) addi,
    StableHlo.TRef.ternary (.of main_call3_v1 : StableHlo.TRef sig ⟨S256, .i1⟩) (.of main_call3_v3 : StableHlo.TRef sig ⟨S256, .i32⟩) (.of main_v63 : StableHlo.TRef sig ⟨S256, .i32⟩) (.of main_call3_v4 : StableHlo.TRef sig ⟨S256, .i32⟩) select,
    StableHlo.TRef.unary main_call3_call0.v0 (.of main_call3_v5 : StableHlo.TRef sig ⟨S256x1, .i32⟩) (broadcastInDim S256x1 ![0] bcast_S256_S256x1_0),
    StableHlo.TRef.nullary (.of main_call3_c_1 : StableHlo.TRef sig ⟨S1, .i32⟩) (constantI S1 32 7#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S256x1, .i32⟩) (broadcastInDim S256x1 ![] bcast_S_S256x1),
    StableHlo.TRef.binary (.of main_call3_v5 : StableHlo.TRef sig ⟨S256x1, .i32⟩) (.of main_call3_v6 : StableHlo.TRef sig ⟨S256x1, .i32⟩) (.of main_call3_v7 : StableHlo.TRef sig ⟨S256x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S256x1, .i32⟩) (broadcastInDim S256x1 ![0, 1] bcast_S1x1_S256x1_0_1),
    StableHlo.TRef.binary (.of main_call3_v5 : StableHlo.TRef sig ⟨S256x1, .i32⟩) (.of main_call3_v9 : StableHlo.TRef sig ⟨S256x1, .i32⟩) (.of main_call3_v10 : StableHlo.TRef sig ⟨S256x1, .i1⟩) (cmpi .sle),
    StableHlo.TRef.binary (.of main_call3_v7 : StableHlo.TRef sig ⟨S256x1, .i1⟩) (.of main_call3_v10 : StableHlo.TRef sig ⟨S256x1, .i1⟩) (.of main_call3_v11 : StableHlo.TRef sig ⟨S256x1, .i1⟩) andi,
    StableHlo.TRef.nullary (.of main_call3_c_3 : StableHlo.TRef sig ⟨S_, .i1⟩) (constantI S_ 1 1#1),
    StableHlo.TRef.binary (.of main_call3_v11 : StableHlo.TRef sig ⟨S256x1, .i1⟩) (.of main_call3_c_3 : StableHlo.TRef sig ⟨S_, .i1⟩) (.of main_call3_v12 : StableHlo.TRef sig ⟨S256, .i1⟩) (fun x v => Host.reduce IntOp.andi x v reducesTo_S256x1_S256_d1 h_S_),
    StableHlo.TRef.binary (.of main_v47 : StableHlo.TRef sig ⟨S8, .i32⟩) (.of main_call3_v5 : StableHlo.TRef sig ⟨S256x1, .i32⟩) (.of main_call3_v13 : StableHlo.TRef sig ⟨S256, .i32⟩) (fun x i => Host.gather gather_S8_S256x1_S256_n_0_n_n_0_1_1 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S256, .i32⟩) (broadcastInDim S256 ![] bcast_S_S256),
    StableHlo.TRef.ternary (.of main_call3_v12 : StableHlo.TRef sig ⟨S256, .i1⟩) (.of main_call3_v13 : StableHlo.TRef sig ⟨S256, .i32⟩) (.of main_call3_v14 : StableHlo.TRef sig ⟨S256, .i32⟩) (.of main_v64 : StableHlo.TRef sig ⟨S256, .i32⟩) select,
    StableHlo.unary main_v46 main_v65 ((extui 32 · natLt_1_32) : (⟨S256x480x640, .i1⟩ : BufTy).Contents (Elt F) → (⟨S256x480x640, .i32⟩ : BufTy).Contents (Elt F)),
    StableHlo.nullary main_c_6 (constantI S_ 32 2147483648#32),
    StableHlo.unary main_c_6 main_v66 (broadcastInDim S8x480x640 ![] bcast_S_S8x480x640 : (⟨S_, .i32⟩ : BufTy).Contents (Elt F) → (⟨S8x480x640, .i32⟩ : BufTy).Contents (Elt F)),
    StableHlo.unary main_v64 main_v67 (broadcastInDim S256x1 ![0] bcast_S256_S256x1_0 : (⟨S256, .i32⟩ : BufTy).Contents (Elt F) → (⟨S256x1, .i32⟩ : BufTy).Contents (Elt F)),
    StableHlo.ternary main_v66 main_v67 main_v65 main_v68 ((fun x i u => Host.scatter scatter_S8x480x640_S256x1_S256x480x640_12_0_0_1 IntOp.maxsi x i u) : (⟨S8x480x640, .i32⟩ : BufTy).Contents (Elt F) → (⟨S256x1, .i32⟩ : BufTy).Contents (Elt F) → (⟨S256x480x640, .i32⟩ : BufTy).Contents (Elt F) → (⟨S8x480x640, .i32⟩ : BufTy).Contents (Elt F)),
    StableHlo.nullary main_c_7 (constantI S_ 32 0#32),
    StableHlo.unary main_c_7 main_v69 (broadcastInDim S8x480x640 ![] bcast_S_S8x480x640 : (⟨S_, .i32⟩ : BufTy).Contents (Elt F) → (⟨S8x480x640, .i32⟩ : BufTy).Contents (Elt F)),
    StableHlo.binary main_v68 main_v69 main_v70 (cmpi .sgt : (⟨S8x480x640, .i32⟩ : BufTy).Contents (Elt F) → (⟨S8x480x640, .i32⟩ : BufTy).Contents (Elt F) → (⟨S8x480x640, .i1⟩ : BufTy).Contents (Elt F)),
    StableHlo.unary main_v70 main_v71 (uitofp .f32 : (⟨S8x480x640, .i1⟩ : BufTy).Contents (Elt F) → (⟨S8x480x640, .f32⟩ : BufTy).Contents (Elt F)),
    StableHlo.nullary main_cst_8 (constant S_ .f32 0x3F800000#32),
    StableHlo.unary main_cst_8 main_v72 (broadcastInDim S8x480x640 ![] bcast_S_S8x480x640 : (⟨S_, .f32⟩ : BufTy).Contents (Elt F) → (⟨S8x480x640, .f32⟩ : BufTy).Contents (Elt F)),
    StableHlo.binary main_v72 main_v71 main_v73 (subf : (⟨S8x480x640, .f32⟩ : BufTy).Contents (Elt F) → (⟨S8x480x640, .f32⟩ : BufTy).Contents (Elt F) → (⟨S8x480x640, .f32⟩ : BufTy).Contents (Elt F)),
    StableHlo.nullary main_cst_9 (constant S_ .f32 0x41500000#32),
    StableHlo.unary main_cst_9 main_v74 (broadcastInDim S8x480x640 ![] bcast_S_S8x480x640 : (⟨S_, .f32⟩ : BufTy).Contents (Elt F) → (⟨S8x480x640, .f32⟩ : BufTy).Contents (Elt F)),
    StableHlo.binary main_v74 main_v71 main_v75 (mulf : (⟨S8x480x640, .f32⟩ : BufTy).Contents (Elt F) → (⟨S8x480x640, .f32⟩ : BufTy).Contents (Elt F) → (⟨S8x480x640, .f32⟩ : BufTy).Contents (Elt F)),
    StableHlo.nullary main_cst_10 (constant S_ .f32 0x3F800000#32),
    StableHlo.unary main_cst_10 main_v76 (broadcastInDim S8x480x640 ![] bcast_S_S8x480x640 : (⟨S_, .f32⟩ : BufTy).Contents (Elt F) → (⟨S8x480x640, .f32⟩ : BufTy).Contents (Elt F)),
    StableHlo.binary main_v76 main_v73 main_v77 (mulf : (⟨S8x480x640, .f32⟩ : BufTy).Contents (Elt F) → (⟨S8x480x640, .f32⟩ : BufTy).Contents (Elt F) → (⟨S8x480x640, .f32⟩ : BufTy).Contents (Elt F)),
    StableHlo.binary main_v75 main_v77 main_v78 (addf : (⟨S8x480x640, .f32⟩ : BufTy).Contents (Elt F) → (⟨S8x480x640, .f32⟩ : BufTy).Contents (Elt F) → (⟨S8x480x640, .f32⟩ : BufTy).Contents (Elt F)),
    StableHlo.binary main_arg0 main_v78 main_v79 (mulf : (⟨S8x480x640, .f32⟩ : BufTy).Contents (Elt F) → (⟨S8x480x640, .f32⟩ : BufTy).Contents (Elt F) → (⟨S8x480x640, .f32⟩ : BufTy).Contents (Elt F)),
    StableHlo.binary main_v79 main_v71 main_v80 (mulf : (⟨S8x480x640, .f32⟩ : BufTy).Contents (Elt F) → (⟨S8x480x640, .f32⟩ : BufTy).Contents (Elt F) → (⟨S8x480x640, .f32⟩ : BufTy).Contents (Elt F)),
    StableHlo.nullary main_cst_11 (constant S_ .f32 0x00000000#32),
    StableHlo.binary main_v80 main_cst_11 main_v81 ((fun x v => Host.reduceAdd x v reducesTo_S8x480x640_S_d0_1_2 h_S_) : (⟨S8x480x640, .f32⟩ : BufTy).Contents (Elt F) → (⟨S_, .f32⟩ : BufTy).Contents (Elt F) → (⟨S_, .f32⟩ : BufTy).Contents (Elt F)),
    StableHlo.nullary main_cst_12 (constant S_ .f32 0x4A160000#32),
    StableHlo.binary main_v81 main_cst_12 main_v82 (Host.divf : (⟨S_, .f32⟩ : BufTy).Contents (Elt F) → (⟨S_, .f32⟩ : BufTy).Contents (Elt F) → (⟨S_, .f32⟩ : BufTy).Contents (Elt F)),
    StableHlo.binary main_v79 main_v73 main_v83 (mulf : (⟨S8x480x640, .f32⟩ : BufTy).Contents (Elt F) → (⟨S8x480x640, .f32⟩ : BufTy).Contents (Elt F) → (⟨S8x480x640, .f32⟩ : BufTy).Contents (Elt F)),
    StableHlo.nullary main_cst_13 (constant S_ .f32 0x00000000#32),
    StableHlo.binary main_v83 main_cst_13 main_v84 ((fun x v => Host.reduceAdd x v reducesTo_S8x480x640_S_d0_1_2 h_S_) : (⟨S8x480x640, .f32⟩ : BufTy).Contents (Elt F) → (⟨S_, .f32⟩ : BufTy).Contents (Elt F) → (⟨S_, .f32⟩ : BufTy).Contents (Elt F)),
    StableHlo.nullary main_cst_14 (constant S_ .f32 0x4A160000#32),
    StableHlo.binary main_v84 main_cst_14 main_v85 (Host.divf : (⟨S_, .f32⟩ : BufTy).Contents (Elt F) → (⟨S_, .f32⟩ : BufTy).Contents (Elt F) → (⟨S_, .f32⟩ : BufTy).Contents (Elt F)),
    StableHlo.binary main_v82 main_v85 main_v86 (addf : (⟨S_, .f32⟩ : BufTy).Contents (Elt F) → (⟨S_, .f32⟩ : BufTy).Contents (Elt F) → (⟨S_, .f32⟩ : BufTy).Contents (Elt F)) ]

/-- All of @main's operations. -/
abbrev ops : List (HloOp τ sig (Elt F)) := ops0 ++ ops1

theorem part0_eq (c : Dev nD) : main_part0 (F := F) c = seq ops0 := by
  chain_rfl

theorem part1_eq (c : Dev nD) : main_part1 (F := F) c = seq ops1 := by
  chain_rfl

theorem main_eq (c : Dev nD) : main (F := F) c = seq ops := by
  show (main_part0 (F := F) c >>= fun _ => main_part1 (F := F) c) = _
  rw [part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub ..⟩
theorem ops1_sub : (ops1 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor

theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp ops0_sub op h
    · exact List.forall_iff_forall_mem.mp ops1_sub op h

theorem ops_fresh : ∀ op ∈ (ops : List (HloOp τ sig (Elt F))), op.fresh = ∅ := fun op hop => by
  rcases List.mem_append.mp hop with h | h
  · exact List.forall_iff_forall_mem.mp ops0_fresh op h
  · exact List.forall_iff_forall_mem.mp ops1_fresh op h

/-- The contents of every buffer after @main's operations, from the launch memory. -/
abbrev A (m : (ℓ : Loc nD τ sig) → Buf (Elt F) ℓ) (c : Dev nD) (b : Ref sig .tc) : Buf (Elt F) ((c.tc : Thread nD τ).loc b) :=
  after ops (launchContents m c) (Proc.devRef .tc b)

/-- On every device, from any memory with zero counters: every weakly fair execution of @main terminates and leaves
    every buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = A m c b :=
  run_seq scopedRefs_eq scopedSems_eq defs main (fun _ => ops) main_eq (fun _ => ops_sub) m ρ (fun _ => ops_fresh)

end Cert.ReferenceIdeal.RefRun

end
-- ==== Proof.RefFun.lean ====
/-
  The reference program after its five integer tables are known — the four span ends u1, v1, u2, v2 and the image
  number of each of the 256 boxes — written as ONE pure function of them and of the loss array, operation by operation
  as the program spells it: the row test and the column test of every box, their conjunction spread over
  256×480×640, the maximum of that 0/1 mask per image (a scatter with a signed-max body into an array of the
  smallest word), "greater than zero" as the foreground indicator, the weight 13·f + 1·(1 - f), and the two
  means (foreground part, background part) added.
-/
import proofs.«120499_j3238405341493_2_alg».proof.Proof.Gen.ReferenceIdeal

noncomputable section

namespace Cert.ReferenceIdeal.RefFun

open Cert.ReferenceIdeal Idealize.ShloMosaic
open Facts₀

variable {F : FTy → Type} [FloatOps F]

/-- Row `h` lies in box `t`'s span: `v1 t ≤ h` and `h < v2 t`, signed, as a 256×480 table of flags. -/
def rowIn (v1 v2 : IVec S256 32) : IVec S256x480 1 :=
  andi
    (cmpi .sge
      (broadcastInDim S256x480 ![0, 1] bcast_S1x480_S256x480_0_1 (broadcastInDim S1x480 ![1] bcast_S480_S1x480_1 (iotaInDim S480 32 0)))
      (broadcastInDim S256x480 ![0, 1] bcast_S256x1_S256x480_0_1 (broadcastInDim S256x1 ![0] bcast_S256_S256x1_0 v1)))
    (cmpi .slt
      (broadcastInDim S256x480 ![0, 1] bcast_S1x480_S256x480_0_1 (broadcastInDim S1x480 ![1] bcast_S480_S1x480_1 (iotaInDim S480 32 0)))
      (broadcastInDim S256x480 ![0, 1] bcast_S256x1_S256x480_0_1 (broadcastInDim S256x1 ![0] bcast_S256_S256x1_0 v2)))

/-- Column `w` lies in box `t`'s span, as a 256×640 table of flags. -/
def colIn (u1 u2 : IVec S256 32) : IVec S256x640 1 :=
  andi
    (cmpi .sge
      (broadcastInDim S256x640 ![0, 1] bcast_S1x640_S256x640_0_1 (broadcastInDim S1x640 ![1] bcast_S640_S1x640_1 (iotaInDim S640 32 0)))
      (broadcastInDim S256x640 ![0, 1] bcast_S256x1_S256x640_0_1 (broadcastInDim S256x1 ![0] bcast_S256_S256x1_0 u1)))
    (cmpi .slt
      (broadcastInDim S256x640 ![0, 1] bcast_S1x640_S256x640_0_1 (broadcastInDim S1x640 ![1] bcast_S640_S1x640_1 (iotaInDim S640 32 0)))
      (broadcastInDim S256x640 ![0, 1] bcast_S256x1_S256x640_0_1 (broadcastInDim S256x1 ![0] bcast_S256_S256x1_0 u2)))

/-- Box `t` covers pixel `(h, w)`: the two tables spread over 256×480×640 and conjoined. -/
def boxMask (u1 v1 u2 v2 : IVec S256 32) : IVec S256x480x640 1 :=
  andi
    (broadcastInDim S256x480x640 ![0, 1, 2] bcast_S256x480x1_S256x480x640_0_1_2
      (broadcastInDim S256x480x1 ![0, 1] bcast_S256x480_S256x480x1_0_1 (rowIn v1 v2)))
    (broadcastInDim S256x480x640 ![0, 1, 2] bcast_S256x1x640_S256x480x640_0_1_2
      (broadcastInDim S256x1x640 ![0, 2] bcast_S256x640_S256x1x640_0_2 (colIn u1 u2)))

/-- Per image, the signed maximum of the masks of the boxes with that image number, started from the smallest word. -/
def segMax (mask : IVec S256x480x640 1) (bids : IVec S256 32) : IVec S8x480x640 32 :=
  Host.scatter scatter_S8x480x640_S256x1_S256x480x640_12_0_0_1 IntOp.maxsi
    (broadcastInDim S8x480x640 ![] bcast_S_S8x480x640 (constantI S_ 32 2147483648#32))
    (broadcastInDim S256x1 ![0] bcast_S256_S256x1_0 bids)
    (extui 32 mask natLt_1_32)

/-- The foreground indicator as a float: 1 where the maximum is positive. -/
def fgOf (seg : IVec S8x480x640 32) : FVec F S8x480x640 .f32 :=
  uitofp .f32 (cmpi .sgt seg (broadcastInDim S8x480x640 ![] bcast_S_S8x480x640 (constantI S_ 32 0#32)))

/-- The background indicator `1 - f`. -/
def bgOf (f : FVec F S8x480x640 .f32) : FVec F S8x480x640 .f32 :=
  subf (broadcastInDim S8x480x640 ![] bcast_S_S8x480x640 (constant S_ .f32 0x3F800000#32)) f

/-- The weighted loss `l · (13 f + 1·(1 - f))`. -/
def weighted (l f : FVec F S8x480x640 .f32) : FVec F S8x480x640 .f32 :=
  mulf l (addf (mulf (broadcastInDim S8x480x640 ![] bcast_S_S8x480x640 (constant S_ .f32 0x41500000#32)) f)
    (mulf (broadcastInDim S8x480x640 ![] bcast_S_S8x480x640 (constant S_ .f32 0x3F800000#32)) (bgOf f)))

/-- The mean of the foreground part plus the mean of the background part. -/
def total (l f : FVec F S8x480x640 .f32) : FVec F S_ .f32 :=
  addf
    (Host.divf (Host.reduceAdd (mulf (weighted l f) f) (constant S_ .f32 0x00000000#32) reducesTo_S8x480x640_S_d0_1_2 h_S_)
      (constant S_ .f32 0x4A160000#32))
    (Host.divf (Host.reduceAdd (mulf (weighted l f) (bgOf f)) (constant S_ .f32 0x00000000#32) reducesTo_S8x480x640_S_d0_1_2 h_S_)
      (constant S_ .f32 0x4A160000#32))

/-- The reference's result as one function of the loss array and the five integer tables. -/
def result (l : FVec F S8x480x640 .f32) (u1 v1 u2 v2 bids : IVec S256 32) : FVec F S_ .f32 :=
  total l (fgOf (segMax (boxMask u1 v1 u2 v2) bids))

end Cert.ReferenceIdeal.RefFun

end
-- ==== Proof.RefRead.lean ====
/-
  The reference run's result buffer holds `RefFun.result` of the loss array as launched and of the five integer
  tables as the run computes them: both sides are the same composition of the program's operations.
-/
import proofs.«120499_j3238405341493_2_alg».proof.Proof.RefOps
import proofs.«120499_j3238405341493_2_alg».proof.Proof.RefFun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem A_result (m : (ℓ : Loc nD τ sig) → Buf (Elt F) ℓ) (c : Dev nD) :
    A m c main_v86 = RefFun.result (F := F) (m ((c.tc : Thread nD τ).loc main_arg0))
      (A m c main_v5) (A m c main_v9) (A m c main_v13) (A m c main_v17) (A m c main_v64) := by
  unfold RefFun.result RefFun.total RefFun.weighted RefFun.bgOf RefFun.fgOf RefFun.segMax RefFun.boxMask RefFun.rowIn RefFun.colIn
  simp only [A, ops, ops0, ops1, List.cons_append, List.nil_append]
  after_results_simp

set_option maxHeartbeats 4000000 in
theorem A_args (m : (ℓ : Loc nD τ sig) → Buf (Elt F) ℓ) (c : Dev nD) :
    A m c main_arg0 = m ((c.tc : Thread nD τ).loc main_arg0) ∧ A m c main_arg1 = m ((c.tc : Thread nD τ).loc main_arg1)
      ∧ A m c main_arg2 = m ((c.tc : Thread nD τ).loc main_arg2) := by
  simp only [A, ops, ops0, ops1, List.cons_append, List.nil_append]
  refine ⟨?_, ?_, ?_⟩ <;> after_results_simp <;> rfl

end Cert.ReferenceIdeal.RefRun

end
-- ==== Proof.LibScatterMax.lean ====
/-
  A scatter whose body is the signed maximum, read at one entry, for any sizes.

  The operand is an N × A × B array holding one and the same word, not positive when read signed; the positions are an
  E × 1 column of 32-bit words; the updates are an E × A × B array whose words are 0 or 1, one A × B plane per
  position. Plane t is combined, entry by entry and by the signed maximum, into the operand's plane idx[t, 0], the
  position read as a signed integer and NOT clamped: a position outside [0, N) changes nothing. The result at
  (b, h, w) is then positive exactly when some plane t whose position is b holds a 1 at (h, w).

  Three steps. A scatter read at one index is a left fold over the update indices of "combine when the update lands
  here". A left fold of conditional signed maxima is positive exactly when its seed is or some combined value is. For
  these dimension numbers update (t, h', w') lands on (b, h, w) exactly when idx[t, 0] = b, h' = h and w' = w.
-/
import Idealize.ShloMosaic.PureOps
import Idealize.ShloMosaic.Lib.ValueIdx

noncomputable section

namespace Cert.Lib.ScatterMax

open Idealize.ShloMosaic Idealize.ShloMosaic.ValueIdx

/-! ## A scatter read at one index is a fold of values -/

section Fold

variable {s si u : Shape} {α : Type} {w : Nat}

/-- Reading a scatter at the index i: fold over the update indices in row-major order, combining the running value
    with the update whenever the update lands on i. -/
theorem scatter_apply_eq_foldl (d : ScatterDims s si u) (f : α → α → α) (x : s.Idx → α) (idx : IVec si w)
    (upd : u.Idx → α) (i : s.Idx) :
    Host.scatter d f x idx upd i
      = (List.finRange u.numel).foldl
          (fun a n => if d.resultIdx? (u.rowMajor.symm n) idx = some i then f a (upd (u.rowMajor.symm n)) else a) (x i) := by
  unfold Host.scatter
  generalize List.finRange u.numel = L
  induction L generalizing x with
  | nil => rfl
  | cons n L ih =>
    rw [List.foldl_cons, List.foldl_cons, ih]
    congr 1
    cases hρ : d.resultIdx? (u.rowMajor.symm n) idx with
    | none => simp
    | some k =>
      show (if i = k then f (x k) (upd (u.rowMajor.symm n)) else x i) = _
      by_cases hik : i = k
      · subst hik; simp
      · have : ¬ (some k = some i) := fun e => hik (Option.some.inj e).symm
        rw [if_neg hik, if_neg this]

end Fold

/-! ## Folding conditional signed maxima -/

section Max

variable {w : Nat}

/-- The signed maximum of two words, read signed, is the maximum of the two integers. -/
theorem maxsi_toInt (a b : BitVec w) : (IntOp.maxsi a b).toInt = max a.toInt b.toInt := by
  unfold IntOp.maxsi
  by_cases h : b.slt a = true
  · rw [if_pos h]
    have := BitVec.slt_iff_toInt_lt.mp h
    omega
  · rw [if_neg h]
    have : ¬ b.toInt < a.toInt := fun hh => h (BitVec.slt_iff_toInt_lt.mpr hh)
    omega

/-- A left fold of conditional signed maxima is positive exactly when the seed is positive or some value that was
    combined is. -/
theorem foldl_maxsi_pos {ι : Type} (P : ι → Prop) [DecidablePred P] (g : ι → BitVec w) :
    ∀ (l : List ι) (a0 : BitVec w),
      0 < (l.foldl (fun a n => if P n then IntOp.maxsi a (g n) else a) a0).toInt
        ↔ 0 < a0.toInt ∨ ∃ n ∈ l, P n ∧ 0 < (g n).toInt
  | [], a0 => by simp
  | m :: l, a0 => by
    rw [List.foldl_cons, foldl_maxsi_pos P g l]
    by_cases hm : P m
    · rw [if_pos hm, maxsi_toInt]
      constructor
      · rintro (h | ⟨n, hn, hP, hg⟩)
        · rcases lt_max_iff.mp h with h | h
          · exact Or.inl h
          · exact Or.inr ⟨m, List.mem_cons_self, hm, h⟩
        · exact Or.inr ⟨n, List.mem_cons_of_mem _ hn, hP, hg⟩
      · rintro (h | ⟨n, hn, hP, hg⟩)
        · exact Or.inl (lt_max_iff.mpr (Or.inl h))
        · rcases List.mem_cons.mp hn with rfl | hn
          · exact Or.inl (lt_max_iff.mpr (Or.inr hg))
          · exact Or.inr ⟨n, hn, hP, hg⟩
    · rw [if_neg hm]
      constructor
      · rintro (h | ⟨n, hn, hP, hg⟩)
        · exact Or.inl h
        · exact Or.inr ⟨n, List.mem_cons_of_mem _ hn, hP, hg⟩
      · rintro (h | ⟨n, hn, hP, hg⟩)
        · exact Or.inl h
        · rcases List.mem_cons.mp hn with rfl | hn
          · exact absurd hP hm
          · exact Or.inr ⟨n, hn, hP, hg⟩

end Max

/-! ## Where an update lands, for one plane per position -/

/-- The dimension numbers: operand [N, A, B], positions [E, 1] (the unit axis holds the one component of a start index,
    which addresses the operand's leading axis), updates [E, A, B]; each update window is one whole A × B plane. -/
abbrev planesScatter (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section Landing

variable {N E A B w : Nat} (wf : ScatterDims.WF ⟨3, ![N, A, B]⟩ ⟨2, ![E, 1]⟩ ⟨3, ![E, A, B]⟩ [1, 2] [0] [0] 1)
  (idx : IVec ⟨2, ![E, 1]⟩ w) (t : Fin E) (p : Fin A) (q : Fin B)

/-- On the leading axis the window of update (t, p, q) starts at the position idx[t, 0], read signed. -/
theorem start_0 : (planesScatter N E A B wf).start (ix3 t p q) idx 0 = (idx (ix2 t ⟨0, Nat.one_pos⟩)).toInt := by
  unfold ScatterDims.start
  rw [dif_pos (show (0 : Fin 3) ∈ (planesScatter N E A B wf).scatterDimsToOperandDims from List.mem_singleton.mpr rfl)]
  have hsi : (planesScatter N E A B wf).siIdx (ix3 t p q) ⟨List.idxOf (0 : Fin 3) (planesScatter N E A B wf).scatterDimsToOperandDims,
      List.idxOf_lt_length_iff.2 (List.mem_singleton.mpr rfl)⟩ = ix2 t ⟨0, Nat.one_pos⟩ := by
    funext b; refine Fin.ext ?_
    match b with
    | ⟨0, _⟩ => rfl
    | ⟨1, _⟩ => rfl
  rw [hsi]

/-- On the two plane axes it starts at zero: no position component addresses them. -/
theorem start_1 : (planesScatter N E A B wf).start (ix3 t p q) idx 1 = 0 := by
  unfold ScatterDims.start
  have h10 : ¬ (1 : Fin 3) ∈ ([0] : List (Fin 3)) := by decide
  rw [dif_neg (show ¬ (1 : Fin 3) ∈ (planesScatter N E A B wf).scatterDimsToOperandDims from h10)]

theorem start_2 : (planesScatter N E A B wf).start (ix3 t p q) idx 2 = 0 := by
  unfold ScatterDims.start
  have h20 : ¬ (2 : Fin 3) ∈ ([0] : List (Fin 3)) := by decide
  rw [dif_neg (show ¬ (2 : Fin 3) ∈ (planesScatter N E A B wf).scatterDimsToOperandDims from h20)]

/-- The leading axis is inserted: the window has no extent along it. -/
theorem window_0 : (planesScatter N E A B wf).window (ix3 t p q) 0 = 0 := by
  unfold ScatterDims.window
  have h0 : ¬ (0 : Fin 3) ∈ (planesScatter N E A B wf).sKept := by
    simp [ScatterDims.sKept, Shape.kept, List.mem_filter]
  rw [dif_neg h0]

/-- Along the plane's two axes the window coordinates of update (t, p, q) are p and q. -/
theorem window_1 : (planesScatter N E A B wf).window (ix3 t p q) 1 = p.val := by
  unfold ScatterDims.window
  have h1 : (1 : Fin 3) ∈ (planesScatter N E A B wf).sKept := by
    simp [ScatterDims.sKept, Shape.kept, List.mem_filter, List.mem_finRange]
  rw [dif_pos h1]
  rfl

theorem window_2 : (planesScatter N E A B wf).window (ix3 t p q) 2 = q.val := by
  unfold ScatterDims.window
  have h2 : (2 : Fin 3) ∈ (planesScatter N E A B wf).sKept := by
    simp [ScatterDims.sKept, Shape.kept, List.mem_filter, List.mem_finRange]
  rw [dif_pos h2]
  rfl

end Landing

section LandingIff

variable {N E A B w : Nat} (wf : ScatterDims.WF ⟨3, ![N, A, B]⟩ ⟨2, ![E, 1]⟩ ⟨3, ![E, A, B]⟩ [1, 2] [0] [0] 1)
  (idx : IVec ⟨2, ![E, 1]⟩ w) (t : Fin E) (p : Fin A) (q : Fin B)

/-- WHERE AN UPDATE LANDS: update (t, p, q) lands on (b, h, c) exactly when its position is b and (p, q) = (h, c). -/
theorem resultIdx?_eq_some_iff (b : Fin N) (h : Fin A) (c : Fin B) :
    (planesScatter N E A B wf).resultIdx? (ix3 t p q) idx = some (ix3 b h c)
      ↔ (idx (ix2 t ⟨0, Nat.one_pos⟩)).toInt = (b.val : Int) ∧ p = h ∧ q = c := by
  have hN : (⟨3, ![N, A, B]⟩ : Shape).size 0 = N := rfl
  have hA : (⟨3, ![N, A, B]⟩ : Shape).size 1 = A := rfl
  have hB : (⟨3, ![N, A, B]⟩ : Shape).size 2 = B := rfl
  have hb := b.isLt
  have hp := p.isLt
  have hq := q.isLt
  unfold ScatterDims.resultIdx?
  split
  · rename_i hin
    rw [Option.some.injEq]
    constructor
    · intro hf
      have h0 := congrArg (fun f => (f 0).val) hf
      have h1 := congrArg (fun f => (f 1).val) hf
      have h2 := congrArg (fun f => (f 2).val) hf
      simp only [start_0, start_1, start_2, window_0, window_1, window_2] at h0 h1 h2
      have hh := (hin 0).1
      rw [start_0, window_0] at hh
      have e0 : ((ix3 b h c : (⟨3, ![N, A, B]⟩ : Shape).Idx) 0).val = b.val := rfl
      have e1 : ((ix3 b h c : (⟨3, ![N, A, B]⟩ : Shape).Idx) 1).val = h.val := rfl
      have e2 : ((ix3 b h c : (⟨3, ![N, A, B]⟩ : Shape).Idx) 2).val = c.val := rfl
      rw [e0] at h0
      rw [e1] at h1
      rw [e2] at h2
      refine ⟨by omega, Fin.ext (by omega), Fin.ext (by omega)⟩
    · rintro ⟨hs, rfl, rfl⟩
      funext a
      refine Fin.ext ?_
      match a with
      | ⟨0, _⟩ =>
        show ((planesScatter N E A B wf).start (ix3 t p q) idx 0 + ((planesScatter N E A B wf).window (ix3 t p q) 0 : Nat)).toNat = b.val
        rw [start_0, window_0, hs]; omega
      | ⟨1, _⟩ =>
        show ((planesScatter N E A B wf).start (ix3 t p q) idx 1 + ((planesScatter N E A B wf).window (ix3 t p q) 1 : Nat)).toNat = p.val
        rw [start_1, window_1]; omega
      | ⟨2, _⟩ =>
        show ((planesScatter N E A B wf).start (ix3 t p q) idx 2 + ((planesScatter N E A B wf).window (ix3 t p q) 2 : Nat)).toNat = q.val
        rw [start_2, window_2]; omega
  · rename_i hin
    constructor
    · intro hf; exact absurd hf (by simp)
    · rintro ⟨hs, rfl, rfl⟩
      refine absurd (fun a => ?_) hin
      match a with
      | ⟨0, _⟩ =>
        show 0 ≤ (planesScatter N E A B wf).start (ix3 t p q) idx 0 + ((planesScatter N E A B wf).window (ix3 t p q) 0 : Nat)
          ∧ (planesScatter N E A B wf).start (ix3 t p q) idx 0 + ((planesScatter N E A B wf).window (ix3 t p q) 0 : Nat)
              < ((⟨3, ![N, A, B]⟩ : Shape).size 0 : Nat)
        rw [start_0, window_0, hs, hN]; omega
      | ⟨1, _⟩ =>
        show 0 ≤ (planesScatter N E A B wf).start (ix3 t p q) idx 1 + ((planesScatter N E A B wf).window (ix3 t p q) 1 : Nat)
          ∧ (planesScatter N E A B wf).start (ix3 t p q) idx 1 + ((planesScatter N E A B wf).window (ix3 t p q) 1 : Nat)
              < ((⟨3, ![N, A, B]⟩ : Shape).size 1 : Nat)
        rw [start_1, window_1, hA]; omega
      | ⟨2, _⟩ =>
        show 0 ≤ (planesScatter N E A B wf).start (ix3 t p q) idx 2 + ((planesScatter N E A B wf).window (ix3 t p q) 2 : Nat)
          ∧ (planesScatter N E A B wf).start (ix3 t p q) idx 2 + ((planesScatter N E A B wf).window (ix3 t p q) 2 : Nat)
              < ((⟨3, ![N, A, B]⟩ : Shape).size 2 : Nat)
        rw [start_2, window_2, hB]; omega

end LandingIff

/-! ## The scatter read at an entry -/

/-- A word compares greater than zero, signed, exactly when it is positive read signed. -/
theorem cmpi_sgt_zero_iff (x : BitVec 32) : IntOp.cmpi .sgt x 0#32 = 1#1 ↔ 0 < x.toInt := by
  show BitVec.ofBool ((0#32).slt x) = 1#1 ↔ _
  have h0 : (0#32).toInt = 0 := by decide
  constructor
  · intro h
    have hs : (0#32).slt x = true := by
      cases hb : (0#32).slt x
      · rw [hb] at h; exact absurd h (by decide)
      · rfl
    have := BitVec.slt_iff_toInt_lt.mp hs
    omega
  · intro h
    have hs : (0#32).slt x = true := BitVec.slt_iff_toInt_lt.mpr (by omega)
    rw [hs]; rfl

/-- THE SCATTER READ AT (b, h, c): over an operand that is everywhere one word, not positive, and updates that are 0 or 1,
    the signed-maximum scatter of one plane per position is positive at (b, h, c) exactly when some plane whose position
    is b holds a 1 at (h, c). -/
theorem scatter_max_pos_iff {N E A B : Nat}
    (wf : ScatterDims.WF ⟨3, ![N, A, B]⟩ ⟨2, ![E, 1]⟩ ⟨3, ![E, A, B]⟩ [1, 2] [0] [0] 1)
    (lo : BitVec 32) (hlo : lo.toInt ≤ 0) (idx : IVec ⟨2, ![E, 1]⟩ 32) (upd : IVec ⟨3, ![E, A, B]⟩ 32)
    (hupd : ∀ j, upd j = 0#32 ∨ upd j = 1#32) (b : Fin N) (h : Fin A) (c : Fin B) :
    IntOp.cmpi .sgt (Host.scatter (planesScatter N E A B wf) IntOp.maxsi (fun _ => lo) idx upd (ix3 b h c)) 0#32 = 1#1
      ↔ ∃ t : Fin E, (idx (ix2 t ⟨0, Nat.one_pos⟩)).toInt = (b.val : Int) ∧ upd (ix3 t h c) = 1#32 := by
  rw [cmpi_sgt_zero_iff, scatter_apply_eq_foldl]
  rw [foldl_maxsi_pos
    (fun n => (planesScatter N E A B wf).resultIdx? ((⟨3, ![E, A, B]⟩ : Shape).rowMajor.symm n) idx = some (ix3 b h c))
    (fun n => upd ((⟨3, ![E, A, B]⟩ : Shape).rowMajor.symm n))]
  constructor
  · rintro (hpos | ⟨n, _, hP, hg⟩)
    · omega
    · generalize (⟨3, ![E, A, B]⟩ : Shape).rowMajor.symm n = j at hP hg
      obtain ⟨t, p, q, rfl⟩ : ∃ (t : Fin E) (p : Fin A) (q : Fin B), j = ix3 t p q := ⟨j 0, j 1, j 2, eq_ix3 j⟩
      obtain ⟨hs, hp, hq⟩ := (resultIdx?_eq_some_iff wf idx t p q b h c).mp hP
      refine ⟨t, hs, ?_⟩
      rcases hupd (ix3 t p q) with h0 | h1
      · rw [h0] at hg; exact absurd hg (by decide)
      · rw [← hp, ← hq]; exact h1
  · rintro ⟨t, hs, hu⟩
    refine Or.inr ⟨(⟨3, ![E, A, B]⟩ : Shape).rowMajor (ix3 t h c), List.mem_finRange _, ?_, ?_⟩
    · show (planesScatter N E A B wf).resultIdx?
        ((⟨3, ![E, A, B]⟩ : Shape).rowMajor.symm ((⟨3, ![E, A, B]⟩ : Shape).rowMajor (ix3 t h c))) idx = some (ix3 b h c)
      rw [Equiv.symm_apply_apply]
      exact (resultIdx?_eq_some_iff wf idx t h c b h c).mpr ⟨hs, rfl, rfl⟩
    · show 0 < (upd ((⟨3, ![E, A, B]⟩ : Shape).rowMajor.symm ((⟨3, ![E, A, B]⟩ : Shape).rowMajor (ix3 t h c)))).toInt
      rw [Equiv.symm_apply_apply, hu]; decide

/-- The same for dimension numbers given by their four fields. -/
theorem scatter_max_pos_iff_of_fields {N E A B : Nat}
    (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1)
    (lo : BitVec 32) (hlo : lo.toInt ≤ 0) (idx : IVec ⟨2, ![E, 1]⟩ 32) (upd : IVec ⟨3, ![E, A, B]⟩ 32)
    (hupd : ∀ j, upd j = 0#32 ∨ upd j = 1#32) (b : Fin N) (h : Fin A) (c : Fin B) :
    IntOp.cmpi .sgt (Host.scatter d IntOp.maxsi (fun _ => lo) idx upd (ix3 b h c)) 0#32 = 1#1
      ↔ ∃ t : Fin E, (idx (ix2 t 0)).toInt = (b.val : Int) ∧ upd (ix3 t h c) = 1#32 := by
  obtain ⟨uw, iw, sd, iv, wf⟩ := d
  simp only at h1 h2 h3 h4
  subst h1 h2 h3 h4
  exact scatter_max_pos_iff wf lo hlo idx upd hupd b h c

/-- The shapes of eight 480 × 640 images, a 256 × 1 column of positions, and 256 planes of 480 × 640. -/
abbrev S8x480x640 : Shape := ⟨3, ![8, 480, 640]⟩
abbrev S256x1 : Shape := ⟨2, ![256, 1]⟩
abbrev S256x480x640 : Shape := ⟨3, ![256, 480, 640]⟩

/-- The statement at those sizes. -/
theorem scatter_max_pos (d : ScatterDims S8x480x640 S256x1 S256x480x640)
    (h1 : d.updateWindowDims = [1, 2]) (h2 : d.insertedWindowDims = [0]) (h3 : d.scatterDimsToOperandDims = [0])
    (h4 : d.indexVectorDim = 1)
    (lo : BitVec 32) (hlo : lo.toInt ≤ 0) (idx : IVec S256x1 32) (upd : IVec S256x480x640 32)
    (hupd : ∀ j, upd j = 0#32 ∨ upd j = 1#32) (b : Fin 8) (h : Fin 480) (w : Fin 640) :
    IntOp.cmpi .sgt (Host.scatter d IntOp.maxsi (fun _ => lo) idx upd (ValueIdx.ix3 b h w)) 0#32 = 1#1
      ↔ ∃ t : Fin 256, (idx (ValueIdx.ix2 t 0)).toInt = (b.val : Int) ∧ upd (ValueIdx.ix3 t h w) = 1#32 :=
  scatter_max_pos_iff_of_fields d h1 h2 h3 h4 lo hlo idx upd hupd b h w

end Cert.Lib.ScatterMax

end
-- ==== Proof.RefMath.lean ====
/-
  The reference's function is the spec's weighted mean written as foreground part plus background part.

  Read at box t, row h and column w, the mask is the conjunction of the row test and the column test, each a pair of
  signed comparisons of the row (column) number against the span ends of box t.  Widened to 32 bits it is 0 or 1; its
  signed maximum per image, started from a non-positive word, is positive exactly when some box of that image covers
  the pixel; so "greater than zero" converted to a float is the foreground indicator.  The two reductions over all
  three axes are total sums, re-indexed as triple sums over image, row and column.
-/
import proofs.«120499_j3238405341493_2_alg».proof.Proof.RefFun
import proofs.«120499_j3238405341493_2_alg».proof.Proof.Spec
import proofs.«120499_j3238405341493_2_alg».proof.Proof.Consts
import proofs.«120499_j3238405341493_2_alg».proof.Proof.LibScatterMax
import Idealize.ShloMosaic.Lib.Pipeline.Value
import Idealize.ShloMosaic.PureOps.Ideal.Laws
import Idealize.ShloMosaic.Lib.ValueIdx
import Idealize.ShloMosaic.Lib.Affine

noncomputable section

namespace Cert.ReferenceIdeal.RefMath

open Cert.ReferenceIdeal Idealize.ShloMosaic Idealize.ShloMosaic.ValueIdx

/-! ## The mask at an index -/

/-- A natural number below 2³¹, as a 32-bit word read signed, is itself. -/
theorem toInt_ofNat32 (n : Nat) (hn : n < 2 ^ 31) : (BitVec.ofNat 32 n).toInt = (n : Int) := by
  unfold BitVec.toInt
  rw [BitVec.toNat_ofNat, Nat.mod_eq_of_lt (by omega : n < 2 ^ 32)]
  split <;> omega

/-- The two signed comparisons of `n` against the ends of a span are both 1 exactly when `n` lies in the span. -/
theorem span_flag (lo hi : BitVec 32) (n : Nat) (hn : n < 2 ^ 31) :
    IntOp.andi (IntOp.cmpi .sge (BitVec.ofNat 32 n) lo) (IntOp.cmpi .slt (BitVec.ofNat 32 n) hi) = 1#1
      ↔ Raster.inSpan lo hi n := by
  rw [IntOp.andi_eq_one, IntOp.cmpi_sge, IntOp.cmpi_slt, toInt_ofNat32 n hn]
  rfl

/-! Each operand is spread by two broadcasts in a row; read at an index, the pair reads the operand at the
    coordinates the broadcasts keep. -/

section Spread
variable {α : Type}

/-- A length-480 vector laid along the rows of a 256×480 table. -/
theorem spread_row (x : S480.Idx → α) (hA : S1x480.BroadcastsInDim S256x480 ![0, 1]) (hB : S480.BroadcastsInDim S1x480 ![1])
    (t : Fin 256) (h : Fin 480) :
    broadcastInDim S256x480 ![0, 1] hA (broadcastInDim S1x480 ![1] hB x) (ix2 t h) = x (ix1 h) :=
  (broadcastInDim_apply _ _ _ _ (ix2 (0 : Fin 1) h) (by intro a; fin_cases a <;> rfl)).trans
    (broadcastInDim_apply _ _ _ _ (ix1 h) (by intro a; fin_cases a <;> rfl))

/-- A length-256 vector laid along the boxes of a 256×480 table. -/
theorem spread_box_row (x : S256.Idx → α) (hA : S256x1.BroadcastsInDim S256x480 ![0, 1]) (hB : S256.BroadcastsInDim S256x1 ![0])
    (t : Fin 256) (h : Fin 480) :
    broadcastInDim S256x480 ![0, 1] hA (broadcastInDim S256x1 ![0] hB x) (ix2 t h) = x (ix1 t) :=
  (broadcastInDim_apply _ _ _ _ (ix2 t (0 : Fin 1)) (by intro a; fin_cases a <;> rfl)).trans
    (broadcastInDim_apply _ _ _ _ (ix1 t) (by intro a; fin_cases a <;> rfl))

/-- A length-640 vector laid along the columns of a 256×640 table. -/
theorem spread_col (x : S640.Idx → α) (hA : S1x640.BroadcastsInDim S256x640 ![0, 1]) (hB : S640.BroadcastsInDim S1x640 ![1])
    (t : Fin 256) (w : Fin 640) :
    broadcastInDim S256x640 ![0, 1] hA (broadcastInDim S1x640 ![1] hB x) (ix2 t w) = x (ix1 w) :=
  (broadcastInDim_apply _ _ _ _ (ix2 (0 : Fin 1) w) (by intro a; fin_cases a <;> rfl)).trans
    (broadcastInDim_apply _ _ _ _ (ix1 w) (by intro a; fin_cases a <;> rfl))

/-- A length-256 vector laid along the boxes of a 256×640 table. -/
theorem spread_box_col (x : S256.Idx → α) (hA : S256x1.BroadcastsInDim S256x640 ![0, 1]) (hB : S256.BroadcastsInDim S256x1 ![0])
    (t : Fin 256) (w : Fin 640) :
    broadcastInDim S256x640 ![0, 1] hA (broadcastInDim S256x1 ![0] hB x) (ix2 t w) = x (ix1 t) :=
  (broadcastInDim_apply _ _ _ _ (ix2 t (0 : Fin 1)) (by intro a; fin_cases a <;> rfl)).trans
    (broadcastInDim_apply _ _ _ _ (ix1 t) (by intro a; fin_cases a <;> rfl))

/-- A 256×480 table repeated along the columns. -/
theorem spread_rows (x : S256x480.Idx → α) (hA : S256x480x1.BroadcastsInDim S256x480x640 ![0, 1, 2])
    (hB : S256x480.BroadcastsInDim S256x480x1 ![0, 1]) (t : Fin 256) (h : Fin 480) (w : Fin 640) :
    broadcastInDim S256x480x640 ![0, 1, 2] hA (broadcastInDim S256x480x1 ![0, 1] hB x) (ix3 t h w) = x (ix2 t h) :=
  (broadcastInDim_apply _ _ _ _ (ix3 t h (0 : Fin 1)) (by intro a; fin_cases a <;> rfl)).trans
    (broadcastInDim_apply _ _ _ _ (ix2 t h) (by intro a; fin_cases a <;> rfl))

/-- A 256×640 table repeated along the rows. -/
theorem spread_cols (x : S256x640.Idx → α) (hA : S256x1x640.BroadcastsInDim S256x480x640 ![0, 1, 2])
    (hB : S256x640.BroadcastsInDim S256x1x640 ![0, 2]) (t : Fin 256) (h : Fin 480) (w : Fin 640) :
    broadcastInDim S256x480x640 ![0, 1, 2] hA (broadcastInDim S256x1x640 ![0, 2] hB x) (ix3 t h w) = x (ix2 t w) :=
  (broadcastInDim_apply _ _ _ _ (ix3 t (0 : Fin 1) w) (by intro a; fin_cases a <;> rfl)).trans
    (broadcastInDim_apply _ _ _ _ (ix2 t w) (by intro a; fin_cases a <;> rfl))

/-- A length-256 vector as a 256×1 column. -/
theorem spread_column (x : S256.Idx → α) (hB : S256.BroadcastsInDim S256x1 ![0]) (t : Fin 256) :
    broadcastInDim S256x1 ![0] hB x (ix2 t (0 : Fin 1)) = x (ix1 t) :=
  broadcastInDim_apply _ _ _ _ (ix1 t) (by intro a; fin_cases a <;> rfl)

/-- A scalar spread over an array reads the scalar everywhere. -/
theorem spread_scalar (x : S_.Idx → α) (hB : S_.BroadcastsInDim S8x480x640 ![]) (i : S8x480x640.Idx) :
    broadcastInDim S8x480x640 ![] hB x i = x ix0 :=
  broadcastInDim_apply _ _ _ _ ix0 (fun a => a.elim0)

end Spread

/-- The row test of box `t` at row `h`. -/
theorem rowIn_apply (v1 v2 : IVec S256 32) (t : Fin 256) (h : Fin 480) :
    RefFun.rowIn v1 v2 (ix2 t h)
      = IntOp.andi (IntOp.cmpi .sge (BitVec.ofNat 32 h.val) (v1 (ix1 t))) (IntOp.cmpi .slt (BitVec.ofNat 32 h.val) (v2 (ix1 t))) := by
  unfold RefFun.rowIn
  simp only [andi, cmpi]
  rw [spread_row, spread_box_row, spread_box_row]
  rfl

/-- The column test of box `t` at column `w`. -/
theorem colIn_apply (u1 u2 : IVec S256 32) (t : Fin 256) (w : Fin 640) :
    RefFun.colIn u1 u2 (ix2 t w)
      = IntOp.andi (IntOp.cmpi .sge (BitVec.ofNat 32 w.val) (u1 (ix1 t))) (IntOp.cmpi .slt (BitVec.ofNat 32 w.val) (u2 (ix1 t))) := by
  unfold RefFun.colIn
  simp only [andi, cmpi]
  rw [spread_col, spread_box_col, spread_box_col]
  rfl

/-- The mask at box `t`, row `h`, column `w` is the conjunction of the row test and the column test. -/
theorem boxMask_apply (u1 v1 u2 v2 : IVec S256 32) (t : Fin 256) (h : Fin 480) (w : Fin 640) :
    RefFun.boxMask u1 v1 u2 v2 (ix3 t h w) = IntOp.andi (RefFun.rowIn v1 v2 (ix2 t h)) (RefFun.colIn u1 u2 (ix2 t w)) := by
  unfold RefFun.boxMask
  simp only [andi]
  rw [spread_rows, spread_cols]

/-- The mask is 1 exactly when the row lies in the box's row span and the column in its column span. -/
theorem boxMask_eq_one_iff (u1 v1 u2 v2 : IVec S256 32) (t : Fin 256) (h : Fin 480) (w : Fin 640) :
    RefFun.boxMask u1 v1 u2 v2 (ix3 t h w) = 1#1
      ↔ Raster.inSpan (v1 (ix1 t)) (v2 (ix1 t)) h.val ∧ Raster.inSpan (u1 (ix1 t)) (u2 (ix1 t)) w.val := by
  rw [boxMask_apply, IntOp.andi_eq_one, rowIn_apply, colIn_apply,
    span_flag _ _ _ (by have := h.isLt; omega), span_flag _ _ _ (by have := w.isLt; omega)]

/-! ## The foreground indicator -/

/-- A one-bit flag is 0 or 1. -/
theorem flag_cases (c : BitVec 1) : c = 0#1 ∨ c = 1#1 := by revert c; decide

/-- A one-bit flag widened to 32 bits is 0 or 1, and is 1 exactly when the flag is. -/
theorem setWidth_flag (c : BitVec 1) :
    (c.setWidth 32 = 0#32 ∨ c.setWidth 32 = 1#32) ∧ (c.setWidth 32 = 1#32 ↔ c = 1#1) := by revert c; decide

/-- The per-image signed maximum of the widened mask is positive exactly on the covered pixels. -/
theorem fg_flag (u1 v1 u2 v2 bids : IVec S256 32) (b : Fin 8) (h : Fin 480) (w : Fin 640) :
    IntOp.cmpi .sgt (RefFun.segMax (RefFun.boxMask u1 v1 u2 v2) bids (ix3 b h w)) 0#32 = 1#1
      ↔ Raster.covered (Raster.boxes u1) (Raster.boxes v1) (Raster.boxes u2) (Raster.boxes v2) (Raster.boxes bids) b h w := by
  have key := Cert.Lib.ScatterMax.scatter_max_pos scatter_S8x480x640_S256x1_S256x480x640_12_0_0_1 rfl rfl rfl rfl
    2147483648#32 (by decide) (broadcastInDim S256x1 ![0] Facts₀.bcast_S256_S256x1_0 bids)
    (extui 32 (RefFun.boxMask u1 v1 u2 v2) Facts₀.natLt_1_32) (fun j => (setWidth_flag _).1) b h w
  refine Iff.trans key ?_
  unfold Raster.covered
  refine exists_congr fun t => and_congr ?_ ?_
  · rw [spread_column]
  · rw [extui_apply, (setWidth_flag _).2, boxMask_eq_one_iff]

/-- "Greater than zero" of the per-image maximum, converted to a float, is the foreground indicator of the spec. -/
theorem fgOf_apply (u1 v1 u2 v2 bids : IVec S256 32) (b : Fin 8) (h : Fin 480) (w : Fin 640) :
    RefFun.fgOf (F := Ideal) (RefFun.segMax (RefFun.boxMask u1 v1 u2 v2) bids) (ix3 b h w)
      = Raster.fg (Raster.boxes u1) (Raster.boxes v1) (Raster.boxes u2) (Raster.boxes v2) (Raster.boxes bids) b h w := by
  have hflag := fg_flag u1 v1 u2 v2 bids b h w
  unfold Raster.fg
  show (((IntOp.cmpi .sgt (RefFun.segMax (RefFun.boxMask u1 v1 u2 v2) bids (ix3 b h w)) 0#32).toNat : ℝ) : EReal) = _
  by_cases hc : Raster.covered (Raster.boxes u1) (Raster.boxes v1) (Raster.boxes u2) (Raster.boxes v2) (Raster.boxes bids) b h w
  · rw [if_pos hc, hflag.2 hc]; simp
  · rw [if_neg hc]
    rcases flag_cases (IntOp.cmpi .sgt (RefFun.segMax (RefFun.boxMask u1 v1 u2 v2) bids (ix3 b h w)) 0#32) with h0 | h1
    · rw [h0]; simp
    · exact absurd (hflag.1 h1) hc

/-! ## The two total sums -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The weighted loss at an index: `l · (13 f + 1·(1 - f))`. -/
theorem weighted_apply (l f : FVec Ideal S8x480x640 .f32) (i : S8x480x640.Idx) :
    RefFun.weighted (F := Ideal) l f i = l i * (((13 : ℝ) : EReal) * f i + 1 * (1 - f i)) := by
  show l i * (Ideal.ofBits .f32 0x41500000#32 * f i + Ideal.ofBits .f32 0x3F800000#32 * (Ideal.ofBits .f32 0x3F800000#32 - f i)) = _
  rw [Raster.w13, Raster.w1]

/-- The background indicator at an index: `1 - f`. -/
theorem bgOf_apply (f : FVec Ideal S8x480x640 .f32) (i : S8x480x640.Idx) :
    RefFun.bgOf (F := Ideal) f i = 1 - f i := by
  show Ideal.ofBits .f32 0x3F800000#32 - f i = _
  rw [Raster.w1]

/-- The reference's total, for any indicator array: the spec's foreground part plus background part. -/
theorem total_eq (l f : FVec Ideal S8x480x640 .f32) :
    RefFun.total (F := Ideal) l f = fun _ => Raster.lossR (Raster.pix l) (Raster.pix f) := by
  funext j
  unfold Raster.lossR
  show Ideal.div (Ideal.hostReduceAdd Facts₀.reducesTo_S8x480x640_S_d0_1_2 (mulf (RefFun.weighted l f) f) (Ideal.ofBits .f32 0x00000000#32) j)
        (Ideal.ofBits .f32 0x4A160000#32)
      + Ideal.div (Ideal.hostReduceAdd Facts₀.reducesTo_S8x480x640_S_d0_1_2 (mulf (RefFun.weighted l f) (RefFun.bgOf f)) (Ideal.ofBits .f32 0x00000000#32) j)
        (Ideal.ofBits .f32 0x4A160000#32) = _
  rw [Ideal.hostReduceAdd_total _ (fun b => b.elim0), Ideal.hostReduceAdd_total _ (fun b => b.elim0), Raster.w0, Raster.wpixels,
    zero_add, zero_add, sum_idx3, sum_idx3]
  congr 2
  · refine Finset.sum_congr rfl fun b _ => Finset.sum_congr rfl fun h _ => Finset.sum_congr rfl fun w _ => ?_
    show RefFun.weighted l f (ix3 b h w) * f (ix3 b h w) = _
    rw [weighted_apply]
  · refine Finset.sum_congr rfl fun b _ => Finset.sum_congr rfl fun h _ => Finset.sum_congr rfl fun w _ => ?_
    show RefFun.weighted l f (ix3 b h w) * RefFun.bgOf f (ix3 b h w) = _
    rw [weighted_apply, bgOf_apply]

/-- The reference's function is the spec's weighted mean, foreground part plus background part, of the loss array
    and the foreground indicator of the boxes. -/
theorem result_eq (l : FVec Ideal S8x480x640 .f32) (u1 v1 u2 v2 bids : IVec S256 32) :
    RefFun.result (F := Ideal) l u1 v1 u2 v2 bids
      = fun _ => Raster.lossR (Raster.pix l)
          (Raster.fg (Raster.boxes u1) (Raster.boxes v1) (Raster.boxes u2) (Raster.boxes v2) (Raster.boxes bids)) := by
  unfold RefFun.result
  rw [total_eq]
  have hf : Raster.pix (RefFun.fgOf (F := Ideal) (RefFun.segMax (RefFun.boxMask u1 v1 u2 v2) bids))
      = Raster.fg (Raster.boxes u1) (Raster.boxes v1) (Raster.boxes u2) (Raster.boxes v2) (Raster.boxes bids) := by
    funext b h w
    exact fgOf_apply u1 v1 u2 v2 bids b h w
  rw [hf]

end Cert.ReferenceIdeal.RefMath

end
-- ==== Proof.RefValue.lean ====
/-
  The reference's run with its result named: every weakly fair execution terminates, the result buffer holding the
  weighted mean in its foreground-plus-background form over the loss array as launched and the five integer tables
  the run computes, the arguments unchanged.
-/
import proofs.«120499_j3238405341493_2_alg».proof.Proof.RefRead
import proofs.«120499_j3238405341493_2_alg».proof.Proof.RefMath

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = (fun _ => Raster.lossR (Raster.pix (m ((c.tc : Thread nD τ).loc main_arg0)))
          (Raster.fg (Raster.boxes (A m c main_v5)) (Raster.boxes (A m c main_v9)) (Raster.boxes (A m c main_v13))
            (Raster.boxes (A m c main_v17)) (Raster.boxes (A m c main_v64))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v86).trans ((A_result m c).trans (RefMath.result_eq _ _ _ _ _ _)),
        (h c main_arg0).trans (A_args m c).1, (h c main_arg1).trans (A_args m c).2.1, (h c main_arg2).trans (A_args m c).2.2⟩)
    (RefRun.run (F := Ideal) m ρ)

end Cert.ReferenceIdeal.RefValue

end
-- ==== Proof.AgreeSpans.lean ====
/-
  The two programs build the four span ends of every box by the same host operations applied to the same array of
  box corners (a division by four, one column, a floor or a ceiling, a conversion to integers): the four tables are equal.
-/
import proofs.«120499_j3238405341493_2_alg».proof.Proof.Gen.KernelIdeal.Frame
import proofs.«120499_j3238405341493_2_alg».proof.Proof.RefOps
import Idealize.ShloMosaic.PureOps.Ideal

noncomputable section

namespace Cert.Agree

open Idealize.ShloMosaic Idealize.ShloMosaic.TcCoe Idealize.SL.Sem Idealize.ShloMosaic.StableHlo

/-- The kernel program's launch memory and the reference program's. -/
abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

set_option maxHeartbeats 4000000 in
/-- The left ends of the column spans. -/
theorem u1_agree (m : MemK) (m' : MemR) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RefRun.A m' c Cert.ReferenceIdeal.main_v5 = Cert.KernelIdeal.Gen.V m c Cert.KernelIdeal.main_v5 := by
  have h1' : launchContents m' c (Proc.tc.devRef Cert.ReferenceIdeal.main_arg1)
      = m (c, Proc.tc.devRef Cert.KernelIdeal.main_arg1) := h1
  simp only [Cert.ReferenceIdeal.RefRun.A, Cert.ReferenceIdeal.RefRun.ops, Cert.ReferenceIdeal.RefRun.ops0,
    Cert.ReferenceIdeal.RefRun.ops1, List.cons_append, List.nil_append]
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h1']
  rfl

set_option maxHeartbeats 4000000 in
/-- The upper ends of the row spans. -/
theorem v1_agree (m : MemK) (m' : MemR) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RefRun.A m' c Cert.ReferenceIdeal.main_v9 = Cert.KernelIdeal.Gen.V m c Cert.KernelIdeal.main_v10 := by
  have h1' : launchContents m' c (Proc.tc.devRef Cert.ReferenceIdeal.main_arg1)
      = m (c, Proc.tc.devRef Cert.KernelIdeal.main_arg1) := h1
  simp only [Cert.ReferenceIdeal.RefRun.A, Cert.ReferenceIdeal.RefRun.ops, Cert.ReferenceIdeal.RefRun.ops0,
    Cert.ReferenceIdeal.RefRun.ops1, List.cons_append, List.nil_append]
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h1']
  rfl

set_option maxHeartbeats 4000000 in
/-- The right ends of the column spans. -/
theorem u2_agree (m : MemK) (m' : MemR) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RefRun.A m' c Cert.ReferenceIdeal.main_v13 = Cert.KernelIdeal.Gen.V m c Cert.KernelIdeal.main_v15 := by
  have h1' : launchContents m' c (Proc.tc.devRef Cert.ReferenceIdeal.main_arg1)
      = m (c, Proc.tc.devRef Cert.KernelIdeal.main_arg1) := h1
  simp only [Cert.ReferenceIdeal.RefRun.A, Cert.ReferenceIdeal.RefRun.ops, Cert.ReferenceIdeal.RefRun.ops0,
    Cert.ReferenceIdeal.RefRun.ops1, List.cons_append, List.nil_append]
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h1']
  rfl

set_option maxHeartbeats 4000000 in
/-- The lower ends of the row spans. -/
theorem v2_agree (m : MemK) (m' : MemR) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RefRun.A m' c Cert.ReferenceIdeal.main_v17 = Cert.KernelIdeal.Gen.V m c Cert.KernelIdeal.main_v20 := by
  have h1' : launchContents m' c (Proc.tc.devRef Cert.ReferenceIdeal.main_arg1)
      = m (c, Proc.tc.devRef Cert.KernelIdeal.main_arg1) := h1
  simp only [Cert.ReferenceIdeal.RefRun.A, Cert.ReferenceIdeal.RefRun.ops, Cert.ReferenceIdeal.RefRun.ops0,
    Cert.ReferenceIdeal.RefRun.ops1, List.cons_append, List.nil_append]
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h1']
  rfl

end Cert.Agree

end
-- ==== Proof.AgreeBids.lean ====
/-
  The two programs build the image number of every box by the same host operations applied to the same array of
  per-image box counts (the counts repeated: a rotation, a point update, a running sum, a scatter-add of ones, a second
  running sum, a lookup): the two tables are equal.
-/
import proofs.«120499_j3238405341493_2_alg».proof.Proof.AgreeSpans

noncomputable section

namespace Cert.Agree

open Idealize.ShloMosaic Idealize.ShloMosaic.TcCoe Idealize.SL.Sem Idealize.ShloMosaic.StableHlo

/-- Two arrays laid end to end along an axis, the two pieces as plain arguments (the general concatenation takes a
    list of shaped pieces, and its side condition mentions that list). -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concat2_eq {α : Type} (t : Shape) (a : Fin t.rank) (s1 s2 : Shape) (x : s1.Idx → α) (y : s2.Idx → α)
    (h : Shape.Concatenates [s1, s2] t a) :
    concatenate t a [⟨s1, x⟩, ⟨s2, y⟩] h = concat2 t a s1 s2 h x y := rfl

set_option maxHeartbeats 8000000 in
/-- The image number of every box. -/
theorem bids_agree (m : MemK) (m' : MemR) (c : Dev Cert.KernelIdeal.nD)
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.RefRun.A m' c Cert.ReferenceIdeal.main_v64 = Cert.KernelIdeal.Gen.V m c Cert.KernelIdeal.main_v39 := by
  have h2' : launchContents m' c (Proc.tc.devRef Cert.ReferenceIdeal.main_arg2)
      = m (c, Proc.tc.devRef Cert.KernelIdeal.main_arg2) := h2
  simp only [Cert.ReferenceIdeal.RefRun.A, Cert.ReferenceIdeal.RefRun.ops, Cert.ReferenceIdeal.RefRun.ops0,
    Cert.ReferenceIdeal.RefRun.ops1, List.cons_append, List.nil_append]
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  simp (disch := decide) only [after_cons, after_nil, concat2_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [h2']
  rfl

end Cert.Agree

end
-- ==== Proof.Agree.lean ====
/-
  The two programs build their five integer tables, the four span ends of every box and the image number of every
  box, by the same host operations applied to the same two argument arrays: the tables are equal.
-/
import proofs.«120499_j3238405341493_2_alg».proof.Proof.AgreeSpans
import proofs.«120499_j3238405341493_2_alg».proof.Proof.AgreeBids

noncomputable section

namespace Cert.Agree

open Idealize.ShloMosaic Idealize.ShloMosaic.TcCoe Idealize.SL.Sem Idealize.ShloMosaic.StableHlo

/-- From launch memories that agree on the array of box corners and on the array of per-image box counts, the
    reference's five tables are the kernel program's. -/
theorem tables_agree (m : MemK) (m' : MemR) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.RefRun.A m' c Cert.ReferenceIdeal.main_v5 = Cert.KernelIdeal.Gen.V m c Cert.KernelIdeal.main_v5
    ∧ Cert.ReferenceIdeal.RefRun.A m' c Cert.ReferenceIdeal.main_v9 = Cert.KernelIdeal.Gen.V m c Cert.KernelIdeal.main_v10
    ∧ Cert.ReferenceIdeal.RefRun.A m' c Cert.ReferenceIdeal.main_v13 = Cert.KernelIdeal.Gen.V m c Cert.KernelIdeal.main_v15
    ∧ Cert.ReferenceIdeal.RefRun.A m' c Cert.ReferenceIdeal.main_v17 = Cert.KernelIdeal.Gen.V m c Cert.KernelIdeal.main_v20
    ∧ Cert.ReferenceIdeal.RefRun.A m' c Cert.ReferenceIdeal.main_v64 = Cert.KernelIdeal.Gen.V m c Cert.KernelIdeal.main_v39 :=
  ⟨u1_agree m m' c h1, v1_agree m m' c h1, u2_agree m m' c h1, v2_agree m m' c h1, bids_agree m m' c h2⟩

end Cert.Agree

end
-- ==== Proof.Algebra.lean ====
/-
  The two ways of writing the weighted mean agree.

  With every per-pixel loss a real number and every indicator value 0 or 1, the weight `13·f + 1·(1 - f)` equals
  `1 + 12·f`, and `a·f + a·(1 - f) = a`; so the foreground sum and the background sum add up to the one sum, and
  dividing by the pixel count (a product with the real `1/2457600`) distributes over the sum of two reals.
-/
import Idealize.ShloMosaic.PureOps.Ideal
import proofs.«120499_j3238405341493_2_alg».proof.Proof.Spec

noncomputable section

namespace Raster

open Idealize.ShloMosaic

/-- A finite sum of reals, read as an extended real, is the sum of the extended reals. -/
theorem coe_finset_sum {ι : Type*} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- A triple finite sum of reals, read as an extended real, is the triple sum of the extended reals. -/
theorem coe_sum3 {α β γ : Type*} [Fintype α] [Fintype β] [Fintype γ] (g : α → β → γ → ℝ) :
    ∑ a : α, ∑ b : β, ∑ c : γ, ((g a b c : ℝ) : EReal) = ((∑ a : α, ∑ b : β, ∑ c : γ, g a b c : ℝ) : EReal) := by
  rw [coe_finset_sum]
  refine Finset.sum_congr rfl fun a _ => ?_
  rw [coe_finset_sum]
  refine Finset.sum_congr rfl fun b _ => ?_
  rw [coe_finset_sum]

/-- The identity over the reals: for an indicator `g` with values 0 and 1, the sum of `r·(1 + 12 g)` is the sum of
    `r·(13 g + 1·(1 - g))·g` plus the sum of `r·(13 g + 1·(1 - g))·(1 - g)`, each scaled by the same factor `c`. -/
theorem real_split {α β γ : Type*} [Fintype α] [Fintype β] [Fintype γ] (r g : α → β → γ → ℝ)
    (hg : ∀ a b c, g a b c = 0 ∨ g a b c = 1) (c : ℝ) :
    (∑ a : α, ∑ b : β, ∑ k : γ, r a b k * (1 + 12 * g a b k)) * c
      = (∑ a : α, ∑ b : β, ∑ k : γ, (r a b k * (13 * g a b k + 1 * (1 - g a b k))) * g a b k) * c
        + (∑ a : α, ∑ b : β, ∑ k : γ, (r a b k * (13 * g a b k + 1 * (1 - g a b k))) * (1 - g a b k)) * c := by
  rw [← add_mul]
  congr 1
  simp only [← Finset.sum_add_distrib]
  refine Finset.sum_congr rfl fun a _ => Finset.sum_congr rfl fun b _ => Finset.sum_congr rfl fun k _ => ?_
  rcases hg a b k with h0 | h1
  · rw [h0]; ring
  · rw [h1]; ring

theorem lossK_eq_lossR (l f : Fin 8 → Fin 480 → Fin 640 → EReal)
    (hl : ∀ b h w, ∃ r : ℝ, l b h w = (r : EReal))
    (hf : ∀ b h w, f b h w = 0 ∨ f b h w = 1) : Raster.lossK l f = Raster.lossR l f := by
  choose r hr using hl
  have hg : ∀ b h w, ∃ g : ℝ, f b h w = (g : EReal) ∧ (g = 0 ∨ g = 1) := by
    intro b h w
    rcases hf b h w with h0 | h1
    · exact ⟨0, by rw [h0, EReal.coe_zero], Or.inl rfl⟩
    · exact ⟨1, by rw [h1, EReal.coe_one], Or.inr rfl⟩
  choose g hg hg01 using hg
  have hK : ∀ b h w, l b h w * (1 + ((12 : ℝ) : EReal) * f b h w)
      = ((r b h w * (1 + 12 * g b h w) : ℝ) : EReal) := by
    intro b h w; rw [hr, hg]; norm_cast
  have hR1 : ∀ b h w, (l b h w * (((13 : ℝ) : EReal) * f b h w + 1 * (1 - f b h w))) * f b h w
      = (((r b h w * (13 * g b h w + 1 * (1 - g b h w))) * g b h w : ℝ) : EReal) := by
    intro b h w; rw [hr, hg]; norm_cast
  have hR2 : ∀ b h w, (l b h w * (((13 : ℝ) : EReal) * f b h w + 1 * (1 - f b h w))) * (1 - f b h w)
      = (((r b h w * (13 * g b h w + 1 * (1 - g b h w))) * (1 - g b h w) : ℝ) : EReal) := by
    intro b h w; rw [hr, hg]; norm_cast
  have hN : (2457600 : ℝ) ≠ 0 := by norm_num
  unfold Raster.lossK Raster.lossR Raster.pixels
  simp only [hK, hR1, hR2]
  rw [coe_sum3, coe_sum3, coe_sum3, Ideal.div_coe hN, Ideal.div_coe hN, Ideal.div_coe hN,
    ← EReal.coe_mul, ← EReal.coe_mul, ← EReal.coe_mul, ← EReal.coe_add]
  exact congrArg _ (real_split r g hg01 _)

end Raster

end
-- ==== Proof.Finite.lean ====
/-
  Every entry of the loss array is a real number.

  The input precondition says that the absolute value of every entry of the first two arrays is below the word
  0x7F800000, which denotes the top of the extended reals.  An extended real whose absolute value max(x, -x) is
  below the top is neither the top nor the bottom, so it is a real number.
-/
import proofs.«120499_j3238405341493_2_alg».proof.Pre_finite_inputs
import Idealize.ShloMosaic.Lib.ReduceAll
import Idealize.ShloMosaic.Lib.ValueIdx
import Idealize.ShloMosaic.PureOps.Ideal

noncomputable section

namespace Raster

open Idealize.ShloMosaic

/-- The 32-bit word 0x7F800000 denotes the top of the extended reals. -/
theorem winf : Ideal.ofBits .f32 0x7F800000#32 = (⊤ : EReal) := by
  simp [Ideal.ofBits, Ideal.ieee]

/-- An extended real whose absolute value `max x (-x)` is below the top is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton Cert.Pre_finite_inputs.S_.Idx := ⟨fun a b => funext fun d => d.elim0⟩

theorem real_of_finite [Cert.Pre_finite_inputs.Facts]
    (x : FVec Ideal Cert.Pre_finite_inputs.S8x480x640 .f32)
    (a1 : FVec Ideal Cert.Pre_finite_inputs.S256x4 .f32)
    (a2 : IVec Cert.Pre_finite_inputs.S8 32)
    (h : Cert.Pre_finite_inputs.fn (F := Ideal) x a1 a2 = fun _ => 1#1) :
    ∀ i, ∃ r : ℝ, x i = (r : EReal) := by
  intro i
  have h0 := congrFun h ValueIdx.ix0
  dsimp only [Cert.Pre_finite_inputs.fn] at h0
  have h1 := (IntOp.andi_eq_one.1 h0).1
  have h2 := Host.reduce_andi_all _ _ _ _ _ h1 i
  have h3 : max (x i) (-(x i)) < Ideal.ofBits .f32 0x7F800000#32 := by
    by_contra hc
    have : cmpf CmpFPredicate.olt (Host.absf x)
        (broadcastInDim Cert.Pre_finite_inputs.S8x480x640 ![] Cert.Pre_finite_inputs.Facts.bcast_S_S8x480x640
          (constant Cert.Pre_finite_inputs.S_ FTy.f32 2139095040#32)) i = 0#1 := by
      show BitVec.ofBool (decide (max (x i) (-(x i)) < Ideal.ofBits .f32 0x7F800000#32)) = 0#1
      rw [decide_eq_false hc]; rfl
    rw [this] at h2
    exact absurd h2 (by decide)
  rw [winf] at h3
  exact real_of_abs_lt_top _ h3

end Raster

end
-- ==== Proof.lean ====
/-
  Two programs compute the same weighted mean of a per-pixel loss over 8 images of 480×640 pixels.  256 boxes, each a
  half-open span of rows and of columns (floors and ceilings of the box corners over 4) and an image number, decide
  the FOREGROUND: pixel (h, w) of image b is foreground when some box of image b covers it.  The weight is 13 on the
  foreground and 1 elsewhere.

  The kernel rasterises per image: the row test of every box (times the indicator "box t belongs to image b") and
  the column test of every box are multiplied as 480×256 by 256×640 matrices of zeros and ones, so that entry (h, w)
  COUNTS the covering boxes; the count exceeds one half exactly when a covering box exists.  It adds up
  loss·(1 + 12·f) along the lanes, then down the rows, and the host adds the eight images and divides by 8·480·640.
  The reference forms the 256×480×640 mask of all boxes, takes per image the maximum over the boxes with that image
  number (started from the smallest integer: an image with no box stays there), reads "greater than zero" as the
  foreground, and adds the mean of loss·(13 f + (1 - f))·f and the mean of loss·(13 f + (1 - f))·(1 - f).
  With f zero or one and the loss REAL (this is where the inputs' finiteness is used: the two means are put over
  one sum) the two results are one number.  Both programs compute the span ends and the image numbers by the same
  host operations, so those five integer tables agree entry by entry.
-/
import proofs.«120499_j3238405341493_2_alg».proof.Defs
import proofs.«120499_j3238405341493_2_alg».proof.Proof.Gen.Kernel
import proofs.«120499_j3238405341493_2_alg».proof.Proof.Gen.Kernel.Frame
import proofs.«120499_j3238405341493_2_alg».proof.Proof.Gen.KernelIdeal
import proofs.«120499_j3238405341493_2_alg».proof.Proof.Gen.KernelIdeal.Frame
import proofs.«120499_j3238405341493_2_alg».proof.Proof.Gen.ReferenceIdeal
import proofs.«120499_j3238405341493_2_alg».proof.Proof.Gen.Pre_finite_inputs
import proofs.«120499_j3238405341493_2_alg».proof.Proof.KernelValue
import proofs.«120499_j3238405341493_2_alg».proof.Proof.RefValue
import proofs.«120499_j3238405341493_2_alg».proof.Proof.Agree
import proofs.«120499_j3238405341493_2_alg».proof.Proof.Algebra
import proofs.«120499_j3238405341493_2_alg».proof.Proof.Finite
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- And the reference: its run, the result forgotten. -/
theorem frame_ri : Cert.frame_ReferenceIdeal := fun m ρ _ =>
  (θ_run Cert.ReferenceIdeal.defs _ _).mono (fun _ h c => (h c).2) (Cert.ReferenceIdeal.RefValue.run m ρ)

/-- From memories that agree on the three arguments, the loss array finite, both programs end with the same number:
    the kernel's sum of loss·(1 + 12 f) over the pixel count is the reference's two means added, f being zero or
    one and the loss real, and the five integer tables behind f agree. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e1, e2, e3, e4, e5⟩ := Cert.Agree.tables_agree m m' c (hagree c).2.1 (hagree c).2.2
  rw [e1, e2, e3, e4, e5, (hagree c).1]
  funext _
  exact (Raster.lossK_eq_lossR _ _ (fun b h w => Raster.real_of_finite _ _ _ (hpre c) (ValueIdx.ix3 b h w))
    (fun b h w => Raster.fg_zero_or_one _ _ _ _ _ b h w)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
